-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v19) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x80x512 : Shape := ⟨3, ![4, 80, 512]⟩
abbrev S4x250x512 : Shape := ⟨3, ![4, 250, 512]⟩
abbrev S1024x1024 : Shape := ⟨2, ![1024, 1024]⟩
abbrev S1024 : Shape := ⟨1, ![1024]⟩
abbrev S1024x2048 : Shape := ⟨2, ![1024, 2048]⟩
abbrev S2048 : Shape := ⟨1, ![2048]⟩
abbrev S_ : Shape := ⟨0, ![]⟩

class Facts : Prop where
  bcast_S_S4x80x512 : S_.BroadcastsInDim S4x80x512 (![] : Fin 0 → Fin S4x80x512.rank)
  reducesTo_S4x80x512_S_d0_1_2 : S4x80x512.ReducesTo [0, 1, 2] S_
  h_S_ : 0 < S_.numel
  bcast_S_S4x250x512 : S_.BroadcastsInDim S4x250x512 (![] : Fin 0 → Fin S4x250x512.rank)
  reducesTo_S4x250x512_S_d0_1_2 : S4x250x512.ReducesTo [0, 1, 2] S_
  bcast_S_S1024x1024 : S_.BroadcastsInDim S1024x1024 (![] : Fin 0 → Fin S1024x1024.rank)
  reducesTo_S1024x1024_S_d0_1 : S1024x1024.ReducesTo [0, 1] S_
  bcast_S_S1024 : S_.BroadcastsInDim S1024 (![] : Fin 0 → Fin S1024.rank)
  reducesTo_S1024_S_d0 : S1024.ReducesTo [0] S_
  bcast_S_S1024x2048 : S_.BroadcastsInDim S1024x2048 (![] : Fin 0 → Fin S1024x2048.rank)
  reducesTo_S1024x2048_S_d0_1 : S1024x2048.ReducesTo [0, 1] S_
  bcast_S_S2048 : S_.BroadcastsInDim S2048 (![] : Fin 0 → Fin S2048.rank)
  reducesTo_S2048_S_d0 : S2048.ReducesTo [0] S_

variable [Facts]

def fn_part1 {F : FTy → Type} [FloatOps F] (main_arg4 : FVec F S1024x2048 .f32) (main_arg5 : FVec F S2048 .f32) (main_v13 : IVec S_ 1) (main_v16 : IVec S1024 1) : IVec S_ 1 :=
  let main_c_5 : IVec S_ 1 := constantI S_ 1 1#1
  let main_v17 : IVec S_ 1 := (fun x v => Host.reduce IntOp.andi x v reducesTo_S1024_S_d0 h_S_) main_v16 main_c_5
  let main_v18 : IVec S_ 1 := andi main_v13 main_v17
  let main_v19 : FVec F S1024x2048 .f32 := Host.absf main_arg4
  let main_cst_6 : FVec F S_ .f32 := constant S_ .f32 0x7F800000#32
  let main_v20 : FVec F S1024x2048 .f32 := broadcastInDim S1024x2048 ![] bcast_S_S1024x2048 main_cst_6
  let main_v21 : IVec S1024x2048 1 := cmpf .olt main_v19 main_v20
  let main_c_7 : IVec S_ 1 := constantI S_ 1 1#1
  let main_v22 : IVec S_ 1 := (fun x v => Host.reduce IntOp.andi x v reducesTo_S1024x2048_S_d0_1 h_S_) main_v21 main_c_7
  let main_v23 : IVec S_ 1 := andi main_v18 main_v22
  let main_v24 : FVec F S2048 .f32 := Host.absf main_arg5
  let main_cst_8 : FVec F S_ .f32 := constant S_ .f32 0x7F800000#32
  let main_v25 : FVec F S2048 .f32 := broadcastInDim S2048 ![] bcast_S_S2048 main_cst_8
  let main_v26 : IVec S2048 1 := cmpf .olt main_v24 main_v25
  let main_c_9 : IVec S_ 1 := constantI S_ 1 1#1
  let main_v27 : IVec S_ 1 := (fun x v => Host.reduce IntOp.andi x v reducesTo_S2048_S_d0 h_S_) main_v26 main_c_9
  let main_v28 : IVec S_ 1 := andi main_v23 main_v27
  main_v28

def fn {F : FTy → Type} [FloatOps F] (main_arg0 : FVec F S4x80x512 .f32) (main_arg1 : FVec F S4x250x512 .f32) (main_arg2 : FVec F S1024x1024 .f32) (main_arg3 : FVec F S1024 .f32) (main_arg4 : FVec F S1024x2048 .f32) (main_arg5 : FVec F S2048 .f32) : IVec S_ 1 :=
  let main_v0 : FVec F S4x80x512 .f32 := Host.absf main_arg0
  let main_cst : FVec F S_ .f32 := constant S_ .f32 0x7F800000#32
  let main_v1 : FVec F S4x80x512 .f32 := broadcastInDim S4x80x512 ![] bcast_S_S4x80x512 main_cst
  let main_v2 : IVec S4x80x512 1 := cmpf .olt main_v0 main_v1
  let main_c : IVec S_ 1 := constantI S_ 1 1#1
  let main_v3 : IVec S_ 1 := (fun x v => Host.reduce IntOp.andi x v reducesTo_S4x80x512_S_d0_1_2 h_S_) main_v2 main_c
  let main_v4 : FVec F S4x250x512 .f32 := Host.absf main_arg1
  let main_cst_0 : FVec F S_ .f32 := constant S_ .f32 0x7F800000#32
  let main_v5 : FVec F S4x250x512 .f32 := broadcastInDim S4x250x512 ![] bcast_S_S4x250x512 main_cst_0
  let main_v6 : IVec S4x250x512 1 := cmpf .olt main_v4 main_v5
  let main_c_1 : IVec S_ 1 := constantI S_ 1 1#1
  let main_v7 : IVec S_ 1 := (fun x v => Host.reduce IntOp.andi x v reducesTo_S4x250x512_S_d0_1_2 h_S_) main_v6 main_c_1
  let main_v8 : IVec S_ 1 := andi main_v3 main_v7
  let main_v9 : FVec F S1024x1024 .f32 := Host.absf main_arg2
  let main_cst_2 : FVec F S_ .f32 := constant S_ .f32 0x7F800000#32
  let main_v10 : FVec F S1024x1024 .f32 := broadcastInDim S1024x1024 ![] bcast_S_S1024x1024 main_cst_2
  let main_v11 : IVec S1024x1024 1 := cmpf .olt main_v9 main_v10
  let main_c_3 : IVec S_ 1 := constantI S_ 1 1#1
  let main_v12 : IVec S_ 1 := (fun x v => Host.reduce IntOp.andi x v reducesTo_S1024x1024_S_d0_1 h_S_) main_v11 main_c_3
  let main_v13 : IVec S_ 1 := andi main_v8 main_v12
  let main_v14 : FVec F S1024 .f32 := Host.absf main_arg3
  let main_cst_4 : FVec F S_ .f32 := constant S_ .f32 0x7F800000#32
  let main_v15 : FVec F S1024 .f32 := broadcastInDim S1024 ![] bcast_S_S1024 main_cst_4
  let main_v16 : IVec S1024 1 := cmpf .olt main_v14 main_v15
  fn_part1 (F := F) main_arg4 main_arg5 main_v13 main_v16
-- ==== Kernel.lean ====
abbrev S4x80x512 : Shape := ⟨3, ![4, 80, 512]⟩
abbrev S4x250x512 : Shape := ⟨3, ![4, 250, 512]⟩
abbrev S1024x1024 : Shape := ⟨2, ![1024, 1024]⟩
abbrev S1024 : Shape := ⟨1, ![1024]⟩
abbrev S1024x2048 : Shape := ⟨2, ![1024, 2048]⟩
abbrev S2048 : Shape := ⟨1, ![2048]⟩
abbrev S_ : Shape := ⟨0, ![]⟩
abbrev S4x256x512 : Shape := ⟨3, ![4, 256, 512]⟩
abbrev S4x256x80x2048 : Shape := ⟨4, ![4, 256, 80, 2048]⟩
abbrev S1x80x512 : Shape := ⟨3, ![1, 80, 512]⟩
abbrev S1x8x512 : Shape := ⟨3, ![1, 8, 512]⟩
abbrev S1x8x80x2048 : Shape := ⟨4, ![1, 8, 80, 2048]⟩
abbrev S80x512 : Shape := ⟨2, ![80, 512]⟩
abbrev S8x512 : Shape := ⟨2, ![8, 512]⟩
abbrev S512x1024 : Shape := ⟨2, ![512, 1024]⟩
abbrev S80x1024 : Shape := ⟨2, ![80, 1024]⟩
abbrev S8x1024 : Shape := ⟨2, ![8, 1024]⟩
abbrev S1x80x1024 : Shape := ⟨3, ![1, 80, 1024]⟩
abbrev S8x1x1024 : Shape := ⟨3, ![8, 1, 1024]⟩
abbrev S8x80x1024 : Shape := ⟨3, ![8, 80, 1024]⟩
abbrev S1x1x1024 : Shape := ⟨3, ![1, 1, 1024]⟩
abbrev S640x1024 : Shape := ⟨2, ![640, 1024]⟩
abbrev S640x2048 : Shape := ⟨2, ![640, 2048]⟩
abbrev S1x2048 : Shape := ⟨2, ![1, 2048]⟩
abbrev S8x80x2048 : Shape := ⟨3, ![8, 80, 2048]⟩
abbrev S8x80 : Shape := ⟨2, ![8, 80]⟩
abbrev S8x80x1 : Shape := ⟨3, ![8, 80, 1]⟩
abbrev S4x250x80x2048 : Shape := ⟨4, ![4, 250, 80, 2048]⟩

abbrev nBuf : Space → Nat
  | .hbm => 15
  | .vmem => 10
  | .smem => 0
  | _ => 0

abbrev bufTy : (tb : Table) → Fin (tcTables nBuf tb) → BufTy
  | .hbm, ⟨0, _⟩ => ⟨S4x80x512, .f32⟩
  | .hbm, ⟨1, _⟩ => ⟨S4x250x512, .f32⟩
  | .hbm, ⟨2, _⟩ => ⟨S1024x1024, .f32⟩
  | .hbm, ⟨3, _⟩ => ⟨S1024, .f32⟩
  | .hbm, ⟨4, _⟩ => ⟨S1024x2048, .f32⟩
  | .hbm, ⟨5, _⟩ => ⟨S2048, .f32⟩
  | .hbm, ⟨6, _⟩ => ⟨S4x80x512, .bf16⟩
  | .hbm, ⟨7, _⟩ => ⟨S4x250x512, .bf16⟩
  | .hbm, ⟨8, _⟩ => ⟨S_, .i32⟩
  | .hbm, ⟨9, _⟩ => ⟨S_, .bf16⟩
  | .hbm, ⟨10, _⟩ => ⟨S4x256x512, .bf16⟩
  | .hbm, ⟨11, _⟩ => ⟨S1024x1024, .bf16⟩
  | .hbm, ⟨12, _⟩ => ⟨S1024x2048, .bf16⟩
  | .hbm, ⟨13, _⟩ => ⟨S4x256x80x2048, .f32⟩
  | .hbm, ⟨14, _⟩ => ⟨S4x250x80x2048, .f32⟩
  | .local _ .vmem, ⟨0, _⟩ => ⟨S1x80x512, .bf16⟩
  | .local _ .vmem, ⟨1, _⟩ => ⟨S1x80x512, .bf16⟩
  | .local _ .vmem, ⟨2, _⟩ => ⟨S1x8x512, .bf16⟩
  | .local _ .vmem, ⟨3, _⟩ => ⟨S1x8x512, .bf16⟩
  | .local _ .vmem, ⟨4, _⟩ => ⟨S1024x1024, .bf16⟩
  | .local _ .vmem, ⟨5, _⟩ => ⟨S1024, .f32⟩
  | .local _ .vmem, ⟨6, _⟩ => ⟨S1024x2048, .bf16⟩
  | .local _ .vmem, ⟨7, _⟩ => ⟨S2048, .f32⟩
  | .local _ .vmem, ⟨8, _⟩ => ⟨S1x8x80x2048, .f32⟩
  | .local _ .vmem, ⟨9, _⟩ => ⟨S1x8x80x2048, .f32⟩
  | _, _ => ⟨S4x80x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_c : Ref sig .tc := ⟨.hbm, 8, rfl⟩
abbrev main_call0_v0 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9

abbrev nD : Nat := 1
abbrev τ : Topo := Topo.v7x

variable {F : FTy → Type} [FloatOps F]

abbrev grid0 : Pipeline.Grid := ⟨2, ![4, 32], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_6 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage0_0 : Fin 2 → Memref sig .tc .vmem S1x80x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x8x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1024x2048 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S1x8x80x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

class Facts₀ : Prop where
  bitsLt_bf16_f32 : FTy.bits .bf16 < FTy.bits .f32
  pads_S4x250x512_S4x256x512_000_060_000 : S4x250x512.Pads (![0, 0, 0] : Fin 3 → Nat) ![0, 6, 0] ![0, 0, 0] S4x256x512
  h_S_ : 0 < S_.numel
  inb_S1x80x512_S1x80x512_0_0_0 : ∀ a, (![0, 0, 0] : Fin 3 → Nat) a + S1x80x512.size a ≤ S1x80x512.size a
  h_S1x80x512 : 0 < S1x80x512.numel
  shapeCasts_S1x80x512_S80x512 : S1x80x512.ShapeCasts S80x512
  inb_S1x8x512_S1x8x512_0_0_0 : ∀ a, (![0, 0, 0] : Fin 3 → Nat) a + S1x8x512.size a ≤ S1x8x512.size a
  h_S1x8x512 : 0 < S1x8x512.numel
  shapeCasts_S1x8x512_S8x512 : S1x8x512.ShapeCasts S8x512
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  slices_S1024x1024_o0_0_S512x1024 : S1024x1024.Slices ![0, 0] S512x1024
  slices_S1024x1024_o512_0_S512x1024 : S1024x1024.Slices ![512, 0] S512x1024
  inb_S1024_S1024_0 : ∀ a, (![0] : Fin 1 → Nat) a + S1024.size a ≤ S1024.size a
  h_S1024 : 0 < S1024.numel
  shapeCasts_S80x1024_S1x80x1024 : S80x1024.ShapeCasts S1x80x1024
  shapeCasts_S8x1024_S8x1x1024 : S8x1024.ShapeCasts S8x1x1024
  broadcasts_S1x80x1024_S8x80x1024 : S1x80x1024.Broadcasts S8x80x1024
  broadcasts_S8x1x1024_S8x80x1024 : S8x1x1024.Broadcasts S8x80x1024
  shapeCasts_S1024_S1x1x1024 : S1024.ShapeCasts S1x1x1024
  broadcasts_S1x1x1024_S8x80x1024 : S1x1x1024.Broadcasts S8x80x1024
  inb_S1024x2048_S1024x2048_0_0 : ∀ a, (![0, 0] : Fin 2 → Nat) a + S1024x2048.size a ≤ S1024x2048.size a
  h_S1024x2048 : 0 < S1024x2048.numel
  shapeCasts_S1024x2048_S1024x2048 : S1024x2048.ShapeCasts S1024x2048
  shapeCasts_S8x80x1024_S640x1024 : S8x80x1024.ShapeCasts S640x1024
  inb_S2048_S2048_0 : ∀ a, (![0] : Fin 1 → Nat) a + S2048.size a ≤ S2048.size a
  h_S2048 : 0 < S2048.numel
  shapeCasts_S2048_S1x2048 : S2048.ShapeCasts S1x2048
  broadcasts_S1x2048_S640x2048 : S1x2048.Broadcasts S640x2048
  shapeCasts_S640x2048_S8x80x2048 : S640x2048.ShapeCasts S8x80x2048
  reduces_S8x80x2048_S8x80 : S8x80x2048.Reduces [2] S8x80
  shapeCasts_S8x80_S8x80x1 : S8x80.ShapeCasts S8x80x1
  broadcasts_S8x80x1_S8x80x2048 : S8x80x1.Broadcasts S8x80x2048
  inb_S1x8x80x2048_S1x8x80x2048_0_0_0_0 : ∀ a, (![0, 0, 0, 0] : Fin 4 → Nat) a + S1x8x80x2048.size a ≤ S1x8x80x2048.size a
  h_S1x8x80x2048 : 0 < S1x8x80x2048.numel
  shapeCasts_S1x8x80x2048_S8x80x2048 : S1x8x80x2048.ShapeCasts S8x80x2048
  shapeCasts_S8x80x2048_S1x8x80x2048 : S8x80x2048.ShapeCasts S1x8x80x2048
  slices_S4x256x80x2048_S4x250x80x2048_0_0_0_0 : S4x256x80x2048.Slices ![0, 0, 0, 0] S4x250x80x2048
  dot_S80x512_S512x1024_S80x1024_1_0_0_1_n_n_wf : DotDims.WF S80x512 S512x1024 S80x1024 [1] [0] [0] [1] [] []
  dot_S8x512_S512x1024_S8x1024_1_0_0_1_n_n_wf : DotDims.WF S8x512 S512x1024 S8x1024 [1] [0] [0] [1] [] []
  dot_S640x1024_S1024x2048_S640x2048_1_0_0_1_n_n_wf : DotDims.WF S640x1024 S1024x2048 S640x2048 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x80x512.size a ≤ S4x80x512.size a
  hwx0_0 : ∀ i : grid0.Coords, EltTy.bits .bf16 = 32 ∨ (Rect.block (s := S4x80x512) S1x80x512.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x8x512.size a ≤ S4x256x512.size a
  hwx0_1 : ∀ i : grid0.Coords, EltTy.bits .bf16 = 32 ∨ (Rect.block (s := S4x256x512) S1x8x512.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1024x1024.size a ≤ S1024x1024.size a
  hwx0_2 : ∀ i : grid0.Coords, EltTy.bits .bf16 = 32 ∨ (Rect.block (s := S1024x1024) S1024x1024.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1024.size a ≤ S1024.size a
  hwx0_3 : ∀ i : grid0.Coords, EltTy.bits .f32 = 32 ∨ (Rect.block (s := S1024) S1024.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1024x2048.size a ≤ S1024x2048.size a
  hwx0_4 : ∀ i : grid0.Coords, EltTy.bits .bf16 = 32 ∨ (Rect.block (s := S1024x2048) S1024x2048.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S2048.size a ≤ S2048.size a
  hwx0_5 : ∀ i : grid0.Coords, EltTy.bits .f32 = 32 ∨ (Rect.block (s := S2048) S2048.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S1x8x80x2048.size a ≤ S4x256x80x2048.size a
  hwx0_6 : ∀ i : grid0.Coords, EltTy.bits .f32 = 32 ∨ (Rect.block (s := S4x256x80x2048) S1x8x80x2048.size (cc0_transform_6 i) (hinb0_6 i)).WholeWords (EltTy.packing .f32)

variable [Facts₀]

def dot_S80x512_S512x1024_S80x1024_1_0_0_1_n_n : DotDims S80x512 S512x1024 S80x1024 where
  lhsContracting := [1]
  rhsContracting := [0]
  lhsNonContracting := [0]
  rhsNonContracting := [1]
  lhsBatch := []
  rhsBatch := []
  wf := dot_S80x512_S512x1024_S80x1024_1_0_0_1_n_n_wf
def dot_S8x512_S512x1024_S8x1024_1_0_0_1_n_n : DotDims S8x512 S512x1024 S8x1024 where
  lhsContracting := [1]
  rhsContracting := [0]
  lhsNonContracting := [0]
  rhsNonContracting := [1]
  lhsBatch := []
  rhsBatch := []
  wf := dot_S8x512_S512x1024_S8x1024_1_0_0_1_n_n_wf
def dot_S640x1024_S1024x2048_S640x2048_1_0_0_1_n_n : DotDims S640x1024 S1024x2048 S640x2048 where
  lhsContracting := [1]
  rhsContracting := [0]
  lhsNonContracting := [0]
  rhsNonContracting := [1]
  lhsBatch := []
  rhsBatch := []
  wf := dot_S640x1024_S1024x2048_S640x2048_1_0_0_1_n_n_wf

abbrev win0_0 : Pipeline.Window sig grid0 :=
  Pipeline.Window.ofSpec (Memref.whole main_v0) S1x80x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v2) S1x8x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v3) S1024x1024.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S1024.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v4) S1024x2048.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg5) S2048.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v5) S1x8x80x2048.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

class Facts : Prop extends Facts₀ where

variable [Facts]
-- ==== ReferenceIdeal.lean ====
abbrev S4x80x512 : Shape := ⟨3, ![4, 80, 512]⟩
abbrev S4x250x512 : Shape := ⟨3, ![4, 250, 512]⟩
abbrev S1024x1024 : Shape := ⟨2, ![1024, 1024]⟩
abbrev S1024 : Shape := ⟨1, ![1024]⟩
abbrev S1024x2048 : Shape := ⟨2, ![1024, 2048]⟩
abbrev S2048 : Shape := ⟨1, ![2048]⟩
abbrev S512x1024 : Shape := ⟨2, ![512, 1024]⟩
abbrev S4x80x1024 : Shape := ⟨3, ![4, 80, 1024]⟩
abbrev S4x250x1024 : Shape := ⟨3, ![4, 250, 1024]⟩
abbrev S4x1x80x1024 : Shape := ⟨4, ![4, 1, 80, 1024]⟩
abbrev S4x250x1x1024 : Shape := ⟨4, ![4, 250, 1, 1024]⟩
abbrev S4x250x80x1024 : Shape := ⟨4, ![4, 250, 80, 1024]⟩
abbrev S1x1x1x1024 : Shape := ⟨4, ![1, 1, 1, 1024]⟩
abbrev S4x250x80x2048 : Shape := ⟨4, ![4, 250, 80, 2048]⟩
abbrev S1x1x1x2048 : Shape := ⟨4, ![1, 1, 1, 2048]⟩
abbrev S_ : Shape := ⟨0, ![]⟩
abbrev S4x250x80 : Shape := ⟨3, ![4, 250, 80]⟩
abbrev S4x250x80x1 : Shape := ⟨4, ![4, 250, 80, 1]⟩

abbrev nBuf : Space → Nat
  | .hbm => 41
  | .vmem => 0
  | .smem => 0
  | _ => 0

abbrev bufTy : (tb : Table) → Fin (tcTables nBuf tb) → BufTy
  | .hbm, ⟨0, _⟩ => ⟨S4x80x512, .f32⟩
  | .hbm, ⟨1, _⟩ => ⟨S4x250x512, .f32⟩
  | .hbm, ⟨2, _⟩ => ⟨S1024x1024, .f32⟩
  | .hbm, ⟨3, _⟩ => ⟨S1024, .f32⟩
  | .hbm, ⟨4, _⟩ => ⟨S1024x2048, .f32⟩
  | .hbm, ⟨5, _⟩ => ⟨S2048, .f32⟩
  | .hbm, ⟨6, _⟩ => ⟨S512x1024, .f32⟩
  | .hbm, ⟨7, _⟩ => ⟨S4x80x1024, .f32⟩
  | .hbm, ⟨8, _⟩ => ⟨S512x1024, .f32⟩
  | .hbm, ⟨9, _⟩ => ⟨S4x250x1024, .f32⟩
  | .hbm, ⟨10, _⟩ => ⟨S4x1x80x1024, .f32⟩
  | .hbm, ⟨11, _⟩ => ⟨S4x250x1x1024, .f32⟩
  | .hbm, ⟨12, _⟩ => ⟨S4x250x80x1024, .f32⟩
  | .hbm, ⟨13, _⟩ => ⟨S4x250x80x1024, .f32⟩
  | .hbm, ⟨14, _⟩ => ⟨S4x250x80x1024, .f32⟩
  | .hbm, ⟨15, _⟩ => ⟨S1x1x1x1024, .f32⟩
  | .hbm, ⟨16, _⟩ => ⟨S4x250x80x1024, .f32⟩
  | .hbm, ⟨17, _⟩ => ⟨S4x250x80x1024, .f32⟩
  | .hbm, ⟨18, _⟩ => ⟨S4x250x80x1024, .f32⟩
  | .hbm, ⟨19, _⟩ => ⟨S4x250x80x2048, .f32⟩
  | .hbm, ⟨20, _⟩ => ⟨S1x1x1x2048, .f32⟩
  | .hbm, ⟨21, _⟩ => ⟨S4x250x80x2048, .f32⟩
  | .hbm, ⟨22, _⟩ => ⟨S4x250x80x2048, .f32⟩
  | .hbm, ⟨23, _⟩ => ⟨S_, .f32⟩
  | .hbm, ⟨24, _⟩ => ⟨S4x250x80x2048, .f32⟩
  | .hbm, ⟨25, _⟩ => ⟨S4x250x80x2048, .f32⟩
  | .hbm, ⟨26, _⟩ => ⟨S_, .f32⟩
  | .hbm, ⟨27, _⟩ => ⟨S4x250x80, .f32⟩
  | .hbm, ⟨28, _⟩ => ⟨S_, .f32⟩
  | .hbm, ⟨29, _⟩ => ⟨S4x250x80, .f32⟩
  | .hbm, ⟨30, _⟩ => ⟨S4x250x80, .f32⟩
  | .hbm, ⟨31, _⟩ => ⟨S4x250x80x1, .f32⟩
  | .hbm, ⟨32, _⟩ => ⟨S4x250x80x2048, .f32⟩
  | .hbm, ⟨33, _⟩ => ⟨S4x250x80x2048, .f32⟩
  | .hbm, ⟨34, _⟩ => ⟨S4x250x80x2048, .f32⟩
  | .hbm, ⟨35, _⟩ => ⟨S_, .f32⟩
  | .hbm, ⟨36, _⟩ => ⟨S4x250x80, .f32⟩
  | .hbm, ⟨37, _⟩ => ⟨S4x250x80x1, .f32⟩
  | .hbm, ⟨38, _⟩ => ⟨S4x250x80x1, .f32⟩
  | .hbm, ⟨39, _⟩ => ⟨S4x250x80x2048, .f32⟩
  | .hbm, ⟨40, _⟩ => ⟨S4x250x80x2048, .f32⟩
  | _, _ => ⟨S4x80x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_cst : Ref sig .tc := ⟨.hbm, 23, rfl⟩
abbrev main_v17 : Ref sig .tc := ⟨.hbm, 24, rfl⟩
abbrev main_v18 : Ref sig .tc := ⟨.hbm, 25, rfl⟩
abbrev main_call0_cst : Ref sig .tc := ⟨.hbm, 26, rfl⟩
abbrev main_call0_v0 : Ref sig .tc := ⟨.hbm, 27, rfl⟩
abbrev main_call0_cst_0 : Ref sig .tc := ⟨.hbm, 28, rfl⟩
abbrev main_call0_v1 : Ref sig .tc := ⟨.hbm, 29, rfl⟩
abbrev main_call0_v2 : Ref sig .tc := ⟨.hbm, 30, rfl⟩
abbrev main_call0_v3 : Ref sig .tc := ⟨.hbm, 31, rfl⟩
abbrev main_call0_v4 : Ref sig .tc := ⟨.hbm, 32, rfl⟩
abbrev main_call0_v5 : Ref sig .tc := ⟨.hbm, 33, rfl⟩
abbrev main_call0_v6 : Ref sig .tc := ⟨.hbm, 34, rfl⟩
abbrev main_call0_cst_1 : Ref sig .tc := ⟨.hbm, 35, rfl⟩
abbrev main_call0_v7 : Ref sig .tc := ⟨.hbm, 36, rfl⟩
abbrev main_call0_v8 : Ref sig .tc := ⟨.hbm, 37, rfl⟩
abbrev main_call0_v9 : Ref sig .tc := ⟨.hbm, 38, rfl⟩
abbrev main_call0_v10 : Ref sig .tc := ⟨.hbm, 39, rfl⟩
abbrev main_v19 : Ref sig .tc := ⟨.hbm, 40, rfl⟩

abbrev nD : Nat := 1
abbrev τ : Topo := Topo.v7x

variable {F : FTy → Type} [FloatOps F]

class Facts₀ : Prop where
  slices_S1024x1024_S512x1024_0_0 : S1024x1024.Slices ![0, 0] S512x1024
  slices_S1024x1024_S512x1024_512_0 : S1024x1024.Slices ![512, 0] S512x1024
  bcast_S4x80x1024_S4x1x80x1024_0_2_3 : S4x80x1024.BroadcastsInDim S4x1x80x1024 (![0, 2, 3] : Fin 3 → Fin S4x1x80x1024.rank)
  bcast_S4x250x1024_S4x250x1x1024_0_1_3 : S4x250x1024.BroadcastsInDim S4x250x1x1024 (![0, 1, 3] : Fin 3 → Fin S4x250x1x1024.rank)
  bcast_S4x1x80x1024_S4x250x80x1024_0_1_2_3 : S4x1x80x1024.BroadcastsInDim S4x250x80x1024 (![0, 1, 2, 3] : Fin 4 → Fin S4x250x80x1024.rank)
  bcast_S4x250x1x1024_S4x250x80x1024_0_1_2_3 : S4x250x1x1024.BroadcastsInDim S4x250x80x1024 (![0, 1, 2, 3] : Fin 4 → Fin S4x250x80x1024.rank)
  bcast_S1024_S1x1x1x1024_3 : S1024.BroadcastsInDim S1x1x1x1024 (![3] : Fin 1 → Fin S1x1x1x1024.rank)
  bcast_S1x1x1x1024_S4x250x80x1024_0_1_2_3 : S1x1x1x1024.BroadcastsInDim S4x250x80x1024 (![0, 1, 2, 3] : Fin 4 → Fin S4x250x80x1024.rank)
  bcast_S2048_S1x1x1x2048_3 : S2048.BroadcastsInDim S1x1x1x2048 (![3] : Fin 1 → Fin S1x1x1x2048.rank)
  bcast_S1x1x1x2048_S4x250x80x2048_0_1_2_3 : S1x1x1x2048.BroadcastsInDim S4x250x80x2048 (![0, 1, 2, 3] : Fin 4 → Fin S4x250x80x2048.rank)
  bcast_S_S4x250x80x2048 : S_.BroadcastsInDim S4x250x80x2048 (![] : Fin 0 → Fin S4x250x80x2048.rank)
  reducesTo_S4x250x80x2048_S4x250x80_d3 : S4x250x80x2048.ReducesTo [3] S4x250x80
  h_S_ : 0 < S_.numel
  bcast_S_S4x250x80 : S_.BroadcastsInDim S4x250x80 (![] : Fin 0 → Fin S4x250x80.rank)
  bcast_S4x250x80_S4x250x80x1_0_1_2 : S4x250x80.BroadcastsInDim S4x250x80x1 (![0, 1, 2] : Fin 3 → Fin S4x250x80x1.rank)
  bcast_S4x250x80x1_S4x250x80x2048_0_1_2_3 : S4x250x80x1.BroadcastsInDim S4x250x80x2048 (![0, 1, 2, 3] : Fin 4 → Fin S4x250x80x2048.rank)
  dot_S4x80x512_S512x1024_S4x80x1024_2_0_01_1_n_n_wf : DotDims.WF S4x80x512 S512x1024 S4x80x1024 [2] [0] [0, 1] [1] [] []
  dot_S4x250x512_S512x1024_S4x250x1024_2_0_01_1_n_n_wf : DotDims.WF S4x250x512 S512x1024 S4x250x1024 [2] [0] [0, 1] [1] [] []
  dot_S4x250x80x1024_S1024x2048_S4x250x80x2048_3_0_012_1_n_n_wf : DotDims.WF S4x250x80x1024 S1024x2048 S4x250x80x2048 [3] [0] [0, 1, 2] [1] [] []

variable [Facts₀]

def dot_S4x80x512_S512x1024_S4x80x1024_2_0_01_1_n_n : DotDims S4x80x512 S512x1024 S4x80x1024 where
  lhsContracting := [2]
  rhsContracting := [0]
  lhsNonContracting := [0, 1]
  rhsNonContracting := [1]
  lhsBatch := []
  rhsBatch := []
  wf := dot_S4x80x512_S512x1024_S4x80x1024_2_0_01_1_n_n_wf
def dot_S4x250x512_S512x1024_S4x250x1024_2_0_01_1_n_n : DotDims S4x250x512 S512x1024 S4x250x1024 where
  lhsContracting := [2]
  rhsContracting := [0]
  lhsNonContracting := [0, 1]
  rhsNonContracting := [1]
  lhsBatch := []
  rhsBatch := []
  wf := dot_S4x250x512_S512x1024_S4x250x1024_2_0_01_1_n_n_wf
def dot_S4x250x80x1024_S1024x2048_S4x250x80x2048_3_0_012_1_n_n : DotDims S4x250x80x1024 S1024x2048 S4x250x80x2048 where
  lhsContracting := [3]
  rhsContracting := [0]
  lhsNonContracting := [0, 1, 2]
  rhsNonContracting := [1]
  lhsBatch := []
  rhsBatch := []
  wf := dot_S4x250x80x1024_S1024x2048_S4x250x80x2048_3_0_012_1_n_n_wf

class Facts : Prop extends Facts₀ where

variable [Facts]
-- ==== Proof.RefRun.lean ====
/-
  The reference program's run, read back in two stages.

  The reference is a straight line of 35 host operations: the first 20 compute the logits (two half products, the
  broadcast sums, tanh, the second product, the bias, the division by 1.0), the last 15 are the log-softmax of the
  logits. The run of the whole line is the library's run of a line of host operations; what the result buffer then
  holds is computed stage by stage: after the first 20 operations the logits' buffer holds the logits' term of the
  arguments, and the last 15 operations, from ANY contents, leave in the result buffer the log-softmax of whatever the
  logits' buffer holds. Composed, the result is the staged value `ReadP.val_main_v19` of the arguments: the logits enter
  the log-softmax as ONE value, read four times (under the maximum, twice shifted, under the sum).
-/
import proofs.«178570_j82721070121385_1_alg».proof.Proof.Gen.ReferenceIdeal
import proofs.«178570_j82721070121385_1_alg».proof.Proof.RefRead
import Idealize.ShloMosaic.Lib.StableHlo.Run

noncomputable section

namespace Cert.ReferenceIdeal.RunValue

open Cert.ReferenceIdeal Cert.ReferenceIdeal.Gen Idealize.ShloMosaic Idealize.ShloMosaic.TcCoe Idealize.SL.Sem Idealize.ShloMosaic.StableHlo

variable {F : FTy → Type} [FloatOps F]

/-- The operations that compute the logits, in program order. -/
abbrev opsA : List (HloOp τ sig (Elt F)) :=
  [ unary main_arg2 main_v0 ((extractStridedSlice S512x1024 ![0, 0] · slices_S1024x1024_S512x1024_0_0) : (⟨S1024x1024, .f32⟩ : BufTy).Contents (Elt F) → (⟨S512x1024, .f32⟩ : BufTy).Contents (Elt F)),
    binary main_arg0 main_v0 main_v1 ((fun l r => Host.dotGeneral dot_S4x80x512_S512x1024_S4x80x1024_2_0_01_1_n_n none l r) : (⟨S4x80x512, .f32⟩ : BufTy).Contents (Elt F) → (⟨S512x1024, .f32⟩ : BufTy).Contents (Elt F) → (⟨S4x80x1024, .f32⟩ : BufTy).Contents (Elt F)),
    unary main_arg2 main_v2 ((extractStridedSlice S512x1024 ![512, 0] · slices_S1024x1024_S512x1024_512_0) : (⟨S1024x1024, .f32⟩ : BufTy).Contents (Elt F) → (⟨S512x1024, .f32⟩ : BufTy).Contents (Elt F)),
    binary main_arg1 main_v2 main_v3 ((fun l r => Host.dotGeneral dot_S4x250x512_S512x1024_S4x250x1024_2_0_01_1_n_n none l r) : (⟨S4x250x512, .f32⟩ : BufTy).Contents (Elt F) → (⟨S512x1024, .f32⟩ : BufTy).Contents (Elt F) → (⟨S4x250x1024, .f32⟩ : BufTy).Contents (Elt F)),
    unary main_v1 main_v4 (broadcastInDim S4x1x80x1024 ![0, 2, 3] bcast_S4x80x1024_S4x1x80x1024_0_2_3 : (⟨S4x80x1024, .f32⟩ : BufTy).Contents (Elt F) → (⟨S4x1x80x1024, .f32⟩ : BufTy).Contents (Elt F)),
    unary main_v3 main_v5 (broadcastInDim S4x250x1x1024 ![0, 1, 3] bcast_S4x250x1024_S4x250x1x1024_0_1_3 : (⟨S4x250x1024, .f32⟩ : BufTy).Contents (Elt F) → (⟨S4x250x1x1024, .f32⟩ : BufTy).Contents (Elt F)),
    unary main_v4 main_v6 (broadcastInDim S4x250x80x1024 ![0, 1, 2, 3] bcast_S4x1x80x1024_S4x250x80x1024_0_1_2_3 : (⟨S4x1x80x1024, .f32⟩ : BufTy).Contents (Elt F) → (⟨S4x250x80x1024, .f32⟩ : BufTy).Contents (Elt F)),
    unary main_v5 main_v7 (broadcastInDim S4x250x80x1024 ![0, 1, 2, 3] bcast_S4x250x1x1024_S4x250x80x1024_0_1_2_3 : (⟨S4x250x1x1024, .f32⟩ : BufTy).Contents (Elt F) → (⟨S4x250x80x1024, .f32⟩ : BufTy).Contents (Elt F)),
    binary main_v6 main_v7 main_v8 (addf : (⟨S4x250x80x1024, .f32⟩ : BufTy).Contents (Elt F) → (⟨S4x250x80x1024, .f32⟩ : BufTy).Contents (Elt F) → (⟨S4x250x80x1024, .f32⟩ : BufTy).Contents (Elt F)),
    unary main_arg3 main_v9 (broadcastInDim S1x1x1x1024 ![3] bcast_S1024_S1x1x1x1024_3 : (⟨S1024, .f32⟩ : BufTy).Contents (Elt F) → (⟨S1x1x1x1024, .f32⟩ : BufTy).Contents (Elt F)),
    unary main_v9 main_v10 (broadcastInDim S4x250x80x1024 ![0, 1, 2, 3] bcast_S1x1x1x1024_S4x250x80x1024_0_1_2_3 : (⟨S1x1x1x1024, .f32⟩ : BufTy).Contents (Elt F) → (⟨S4x250x80x1024, .f32⟩ : BufTy).Contents (Elt F)),
    binary main_v8 main_v10 main_v11 (addf : (⟨S4x250x80x1024, .f32⟩ : BufTy).Contents (Elt F) → (⟨S4x250x80x1024, .f32⟩ : BufTy).Contents (Elt F) → (⟨S4x250x80x1024, .f32⟩ : BufTy).Contents (Elt F)),
    unary main_v11 main_v12 (Host.tanh : (⟨S4x250x80x1024, .f32⟩ : BufTy).Contents (Elt F) → (⟨S4x250x80x1024, .f32⟩ : BufTy).Contents (Elt F)),
    binary main_v12 main_arg4 main_v13 ((fun l r => Host.dotGeneral dot_S4x250x80x1024_S1024x2048_S4x250x80x2048_3_0_012_1_n_n none l r) : (⟨S4x250x80x1024, .f32⟩ : BufTy).Contents (Elt F) → (⟨S1024x2048, .f32⟩ : BufTy).Contents (Elt F) → (⟨S4x250x80x2048, .f32⟩ : BufTy).Contents (Elt F)),
    unary main_arg5 main_v14 (broadcastInDim S1x1x1x2048 ![3] bcast_S2048_S1x1x1x2048_3 : (⟨S2048, .f32⟩ : BufTy).Contents (Elt F) → (⟨S1x1x1x2048, .f32⟩ : BufTy).Contents (Elt F)),
    unary main_v14 main_v15 (broadcastInDim S4x250x80x2048 ![0, 1, 2, 3] bcast_S1x1x1x2048_S4x250x80x2048_0_1_2_3 : (⟨S1x1x1x2048, .f32⟩ : BufTy).Contents (Elt F) → (⟨S4x250x80x2048, .f32⟩ : BufTy).Contents (Elt F)),
    binary main_v13 main_v15 main_v16 (addf : (⟨S4x250x80x2048, .f32⟩ : BufTy).Contents (Elt F) → (⟨S4x250x80x2048, .f32⟩ : BufTy).Contents (Elt F) → (⟨S4x250x80x2048, .f32⟩ : BufTy).Contents (Elt F)),
    nullary main_cst (constant S_ .f32 0x3F800000#32),
    unary main_cst main_v17 (broadcastInDim S4x250x80x2048 ![] bcast_S_S4x250x80x2048 : (⟨S_, .f32⟩ : BufTy).Contents (Elt F) → (⟨S4x250x80x2048, .f32⟩ : BufTy).Contents (Elt F)),
    binary main_v16 main_v17 main_v18 (Host.divf : (⟨S4x250x80x2048, .f32⟩ : BufTy).Contents (Elt F) → (⟨S4x250x80x2048, .f32⟩ : BufTy).Contents (Elt F) → (⟨S4x250x80x2048, .f32⟩ : BufTy).Contents (Elt F)) ]

/-- The operations of the log-softmax, in program order (a called function's operations in its call's place). -/
abbrev opsB : List (HloOp τ sig (Elt F)) :=
  [ TRef.nullary (TRef.of (T := ⟨S_, .f32⟩) main_call0_cst) (constant S_ .f32 0xFF800000#32),
    TRef.binary (TRef.of (T := ⟨S4x250x80x2048, .f32⟩) main_v18) (TRef.of (T := ⟨S_, .f32⟩) main_call0_cst) (TRef.of (T := ⟨S4x250x80, .f32⟩) main_call0_v0) (fun x v => Host.reduce FloatOps.maximumf x v reducesTo_S4x250x80x2048_S4x250x80_d3 h_S_),
    TRef.nullary (TRef.of (T := ⟨S_, .f32⟩) main_call0_cst_0) (constant S_ .f32 0xFF800000#32),
    TRef.unary (TRef.of (T := ⟨S_, .f32⟩) main_call0_cst_0) (TRef.of (T := ⟨S4x250x80, .f32⟩) main_call0_v1) (broadcastInDim S4x250x80 ![] bcast_S_S4x250x80),
    TRef.binary (TRef.of (T := ⟨S4x250x80, .f32⟩) main_call0_v1) (TRef.of (T := ⟨S4x250x80, .f32⟩) main_call0_v0) (TRef.of (T := ⟨S4x250x80, .f32⟩) main_call0_v2) maximumf,
    TRef.unary (TRef.of (T := ⟨S4x250x80, .f32⟩) main_call0_v2) (TRef.of (T := ⟨S4x250x80x1, .f32⟩) main_call0_v3) (broadcastInDim S4x250x80x1 ![0, 1, 2] bcast_S4x250x80_S4x250x80x1_0_1_2),
    TRef.unary (TRef.of (T := ⟨S4x250x80x1, .f32⟩) main_call0_v3) (TRef.of (T := ⟨S4x250x80x2048, .f32⟩) main_call0_v4) (broadcastInDim S4x250x80x2048 ![0, 1, 2, 3] bcast_S4x250x80x1_S4x250x80x2048_0_1_2_3),
    TRef.binary (TRef.of (T := ⟨S4x250x80x2048, .f32⟩) main_v18) (TRef.of (T := ⟨S4x250x80x2048, .f32⟩) main_call0_v4) (TRef.of (T := ⟨S4x250x80x2048, .f32⟩) main_call0_v5) subf,
    TRef.unary (TRef.of (T := ⟨S4x250x80x2048, .f32⟩) main_call0_v5) (TRef.of (T := ⟨S4x250x80x2048, .f32⟩) main_call0_v6) Host.exp,
    TRef.nullary (TRef.of (T := ⟨S_, .f32⟩) main_call0_cst_1) (constant S_ .f32 0x00000000#32),
    TRef.binary (TRef.of (T := ⟨S4x250x80x2048, .f32⟩) main_call0_v6) (TRef.of (T := ⟨S_, .f32⟩) main_call0_cst_1) (TRef.of (T := ⟨S4x250x80, .f32⟩) main_call0_v7) (fun x v => Host.reduceAdd x v reducesTo_S4x250x80x2048_S4x250x80_d3 h_S_),
    TRef.unary (TRef.of (T := ⟨S4x250x80, .f32⟩) main_call0_v7) (TRef.of (T := ⟨S4x250x80x1, .f32⟩) main_call0_v8) (broadcastInDim S4x250x80x1 ![0, 1, 2] bcast_S4x250x80_S4x250x80x1_0_1_2),
    TRef.unary (TRef.of (T := ⟨S4x250x80x1, .f32⟩) main_call0_v8) (TRef.of (T := ⟨S4x250x80x1, .f32⟩) main_call0_v9) Host.log,
    TRef.unary (TRef.of (T := ⟨S4x250x80x1, .f32⟩) main_call0_v9) (TRef.of (T := ⟨S4x250x80x2048, .f32⟩) main_call0_v10) (broadcastInDim S4x250x80x2048 ![0, 1, 2, 3] bcast_S4x250x80x1_S4x250x80x2048_0_1_2_3),
    TRef.binary (TRef.of (T := ⟨S4x250x80x2048, .f32⟩) main_call0_v5) (TRef.of (T := ⟨S4x250x80x2048, .f32⟩) main_call0_v10) (TRef.of (T := ⟨S4x250x80x2048, .f32⟩) main_v19) subf ]

/-- The whole line. -/
abbrev ops : List (HloOp τ sig (Elt F)) :=
  [ unary main_arg2 main_v0 ((extractStridedSlice S512x1024 ![0, 0] · slices_S1024x1024_S512x1024_0_0) : (⟨S1024x1024, .f32⟩ : BufTy).Contents (Elt F) → (⟨S512x1024, .f32⟩ : BufTy).Contents (Elt F)),
    binary main_arg0 main_v0 main_v1 ((fun l r => Host.dotGeneral dot_S4x80x512_S512x1024_S4x80x1024_2_0_01_1_n_n none l r) : (⟨S4x80x512, .f32⟩ : BufTy).Contents (Elt F) → (⟨S512x1024, .f32⟩ : BufTy).Contents (Elt F) → (⟨S4x80x1024, .f32⟩ : BufTy).Contents (Elt F)),
    unary main_arg2 main_v2 ((extractStridedSlice S512x1024 ![512, 0] · slices_S1024x1024_S512x1024_512_0) : (⟨S1024x1024, .f32⟩ : BufTy).Contents (Elt F) → (⟨S512x1024, .f32⟩ : BufTy).Contents (Elt F)),
    binary main_arg1 main_v2 main_v3 ((fun l r => Host.dotGeneral dot_S4x250x512_S512x1024_S4x250x1024_2_0_01_1_n_n none l r) : (⟨S4x250x512, .f32⟩ : BufTy).Contents (Elt F) → (⟨S512x1024, .f32⟩ : BufTy).Contents (Elt F) → (⟨S4x250x1024, .f32⟩ : BufTy).Contents (Elt F)),
    unary main_v1 main_v4 (broadcastInDim S4x1x80x1024 ![0, 2, 3] bcast_S4x80x1024_S4x1x80x1024_0_2_3 : (⟨S4x80x1024, .f32⟩ : BufTy).Contents (Elt F) → (⟨S4x1x80x1024, .f32⟩ : BufTy).Contents (Elt F)),
    unary main_v3 main_v5 (broadcastInDim S4x250x1x1024 ![0, 1, 3] bcast_S4x250x1024_S4x250x1x1024_0_1_3 : (⟨S4x250x1024, .f32⟩ : BufTy).Contents (Elt F) → (⟨S4x250x1x1024, .f32⟩ : BufTy).Contents (Elt F)),
    unary main_v4 main_v6 (broadcastInDim S4x250x80x1024 ![0, 1, 2, 3] bcast_S4x1x80x1024_S4x250x80x1024_0_1_2_3 : (⟨S4x1x80x1024, .f32⟩ : BufTy).Contents (Elt F) → (⟨S4x250x80x1024, .f32⟩ : BufTy).Contents (Elt F)),
    unary main_v5 main_v7 (broadcastInDim S4x250x80x1024 ![0, 1, 2, 3] bcast_S4x250x1x1024_S4x250x80x1024_0_1_2_3 : (⟨S4x250x1x1024, .f32⟩ : BufTy).Contents (Elt F) → (⟨S4x250x80x1024, .f32⟩ : BufTy).Contents (Elt F)),
    binary main_v6 main_v7 main_v8 (addf : (⟨S4x250x80x1024, .f32⟩ : BufTy).Contents (Elt F) → (⟨S4x250x80x1024, .f32⟩ : BufTy).Contents (Elt F) → (⟨S4x250x80x1024, .f32⟩ : BufTy).Contents (Elt F)),
    unary main_arg3 main_v9 (broadcastInDim S1x1x1x1024 ![3] bcast_S1024_S1x1x1x1024_3 : (⟨S1024, .f32⟩ : BufTy).Contents (Elt F) → (⟨S1x1x1x1024, .f32⟩ : BufTy).Contents (Elt F)),
    unary main_v9 main_v10 (broadcastInDim S4x250x80x1024 ![0, 1, 2, 3] bcast_S1x1x1x1024_S4x250x80x1024_0_1_2_3 : (⟨S1x1x1x1024, .f32⟩ : BufTy).Contents (Elt F) → (⟨S4x250x80x1024, .f32⟩ : BufTy).Contents (Elt F)),
    binary main_v8 main_v10 main_v11 (addf : (⟨S4x250x80x1024, .f32⟩ : BufTy).Contents (Elt F) → (⟨S4x250x80x1024, .f32⟩ : BufTy).Contents (Elt F) → (⟨S4x250x80x1024, .f32⟩ : BufTy).Contents (Elt F)),
    unary main_v11 main_v12 (Host.tanh : (⟨S4x250x80x1024, .f32⟩ : BufTy).Contents (Elt F) → (⟨S4x250x80x1024, .f32⟩ : BufTy).Contents (Elt F)),
    binary main_v12 main_arg4 main_v13 ((fun l r => Host.dotGeneral dot_S4x250x80x1024_S1024x2048_S4x250x80x2048_3_0_012_1_n_n none l r) : (⟨S4x250x80x1024, .f32⟩ : BufTy).Contents (Elt F) → (⟨S1024x2048, .f32⟩ : BufTy).Contents (Elt F) → (⟨S4x250x80x2048, .f32⟩ : BufTy).Contents (Elt F)),
    unary main_arg5 main_v14 (broadcastInDim S1x1x1x2048 ![3] bcast_S2048_S1x1x1x2048_3 : (⟨S2048, .f32⟩ : BufTy).Contents (Elt F) → (⟨S1x1x1x2048, .f32⟩ : BufTy).Contents (Elt F)),
    unary main_v14 main_v15 (broadcastInDim S4x250x80x2048 ![0, 1, 2, 3] bcast_S1x1x1x2048_S4x250x80x2048_0_1_2_3 : (⟨S1x1x1x2048, .f32⟩ : BufTy).Contents (Elt F) → (⟨S4x250x80x2048, .f32⟩ : BufTy).Contents (Elt F)),
    binary main_v13 main_v15 main_v16 (addf : (⟨S4x250x80x2048, .f32⟩ : BufTy).Contents (Elt F) → (⟨S4x250x80x2048, .f32⟩ : BufTy).Contents (Elt F) → (⟨S4x250x80x2048, .f32⟩ : BufTy).Contents (Elt F)),
    nullary main_cst (constant S_ .f32 0x3F800000#32),
    unary main_cst main_v17 (broadcastInDim S4x250x80x2048 ![] bcast_S_S4x250x80x2048 : (⟨S_, .f32⟩ : BufTy).Contents (Elt F) → (⟨S4x250x80x2048, .f32⟩ : BufTy).Contents (Elt F)),
    binary main_v16 main_v17 main_v18 (Host.divf : (⟨S4x250x80x2048, .f32⟩ : BufTy).Contents (Elt F) → (⟨S4x250x80x2048, .f32⟩ : BufTy).Contents (Elt F) → (⟨S4x250x80x2048, .f32⟩ : BufTy).Contents (Elt F)),
    TRef.nullary (TRef.of (T := ⟨S_, .f32⟩) main_call0_cst) (constant S_ .f32 0xFF800000#32),
    TRef.binary (TRef.of (T := ⟨S4x250x80x2048, .f32⟩) main_v18) (TRef.of (T := ⟨S_, .f32⟩) main_call0_cst) (TRef.of (T := ⟨S4x250x80, .f32⟩) main_call0_v0) (fun x v => Host.reduce FloatOps.maximumf x v reducesTo_S4x250x80x2048_S4x250x80_d3 h_S_),
    TRef.nullary (TRef.of (T := ⟨S_, .f32⟩) main_call0_cst_0) (constant S_ .f32 0xFF800000#32),
    TRef.unary (TRef.of (T := ⟨S_, .f32⟩) main_call0_cst_0) (TRef.of (T := ⟨S4x250x80, .f32⟩) main_call0_v1) (broadcastInDim S4x250x80 ![] bcast_S_S4x250x80),
    TRef.binary (TRef.of (T := ⟨S4x250x80, .f32⟩) main_call0_v1) (TRef.of (T := ⟨S4x250x80, .f32⟩) main_call0_v0) (TRef.of (T := ⟨S4x250x80, .f32⟩) main_call0_v2) maximumf,
    TRef.unary (TRef.of (T := ⟨S4x250x80, .f32⟩) main_call0_v2) (TRef.of (T := ⟨S4x250x80x1, .f32⟩) main_call0_v3) (broadcastInDim S4x250x80x1 ![0, 1, 2] bcast_S4x250x80_S4x250x80x1_0_1_2),
    TRef.unary (TRef.of (T := ⟨S4x250x80x1, .f32⟩) main_call0_v3) (TRef.of (T := ⟨S4x250x80x2048, .f32⟩) main_call0_v4) (broadcastInDim S4x250x80x2048 ![0, 1, 2, 3] bcast_S4x250x80x1_S4x250x80x2048_0_1_2_3),
    TRef.binary (TRef.of (T := ⟨S4x250x80x2048, .f32⟩) main_v18) (TRef.of (T := ⟨S4x250x80x2048, .f32⟩) main_call0_v4) (TRef.of (T := ⟨S4x250x80x2048, .f32⟩) main_call0_v5) subf,
    TRef.unary (TRef.of (T := ⟨S4x250x80x2048, .f32⟩) main_call0_v5) (TRef.of (T := ⟨S4x250x80x2048, .f32⟩) main_call0_v6) Host.exp,
    TRef.nullary (TRef.of (T := ⟨S_, .f32⟩) main_call0_cst_1) (constant S_ .f32 0x00000000#32),
    TRef.binary (TRef.of (T := ⟨S4x250x80x2048, .f32⟩) main_call0_v6) (TRef.of (T := ⟨S_, .f32⟩) main_call0_cst_1) (TRef.of (T := ⟨S4x250x80, .f32⟩) main_call0_v7) (fun x v => Host.reduceAdd x v reducesTo_S4x250x80x2048_S4x250x80_d3 h_S_),
    TRef.unary (TRef.of (T := ⟨S4x250x80, .f32⟩) main_call0_v7) (TRef.of (T := ⟨S4x250x80x1, .f32⟩) main_call0_v8) (broadcastInDim S4x250x80x1 ![0, 1, 2] bcast_S4x250x80_S4x250x80x1_0_1_2),
    TRef.unary (TRef.of (T := ⟨S4x250x80x1, .f32⟩) main_call0_v8) (TRef.of (T := ⟨S4x250x80x1, .f32⟩) main_call0_v9) Host.log,
    TRef.unary (TRef.of (T := ⟨S4x250x80x1, .f32⟩) main_call0_v9) (TRef.of (T := ⟨S4x250x80x2048, .f32⟩) main_call0_v10) (broadcastInDim S4x250x80x2048 ![0, 1, 2, 3] bcast_S4x250x80x1_S4x250x80x2048_0_1_2_3),
    TRef.binary (TRef.of (T := ⟨S4x250x80x2048, .f32⟩) main_call0_v5) (TRef.of (T := ⟨S4x250x80x2048, .f32⟩) main_call0_v10) (TRef.of (T := ⟨S4x250x80x2048, .f32⟩) main_v19) subf ]

theorem ops_eq : (ops : List (HloOp τ sig (Elt F))) = opsA ++ opsB := rfl

theorem main_eq (c : Dev nD) : main (F := F) c = seq ops := rfl
theorem scopedRefs_eq : (Finset.univ.filter fun b : Ref sig .tc => b.isScoped) = ∅ := by decide
theorem scopedSems_eq : (Finset.univ.filter fun sm : SemLoc sig => sm.isScoped .tc) = ∅ := by decide
theorem ops_sub : (ops : List (HloOp τ sig (Elt F))).Forall fun op => op.bufs ⊆ tcRefs τ sig :=
  ⟨unary_bufs_sub .., binary_bufs_sub .., unary_bufs_sub .., binary_bufs_sub .., unary_bufs_sub .., unary_bufs_sub .., unary_bufs_sub .., unary_bufs_sub .., binary_bufs_sub .., unary_bufs_sub .., unary_bufs_sub .., binary_bufs_sub .., unary_bufs_sub .., binary_bufs_sub .., unary_bufs_sub .., unary_bufs_sub .., binary_bufs_sub .., nullary_bufs_sub .., unary_bufs_sub .., binary_bufs_sub .., nullary_bufs_sub .., binary_bufs_sub .., nullary_bufs_sub .., unary_bufs_sub .., binary_bufs_sub .., unary_bufs_sub .., unary_bufs_sub .., binary_bufs_sub .., unary_bufs_sub .., nullary_bufs_sub .., binary_bufs_sub .., unary_bufs_sub .., unary_bufs_sub .., unary_bufs_sub .., binary_bufs_sub ..⟩

/-- Running two lines one after the other: the second from what the first leaves. -/
theorem after_append (l₁ l₂ : List (HloOp τ sig (Elt F))) (V : Valuation τ sig (Elt F)) :
    after (l₁ ++ l₂) V = after l₂ (after l₁ V) := by
  induction l₁ generalizing V with
  | nil => rfl
  | cons op l ih => exact ih _

/-- The log-softmax of a tensor of logits along its last axis, as the reference's last 15 operations compute it. -/
def logSoftmaxOf (y : (⟨S4x250x80x2048, .f32⟩ : BufTy).Contents (Elt F)) : (⟨S4x250x80x2048, .f32⟩ : BufTy).Contents (Elt F) :=
  subf (subf y (broadcastInDim S4x250x80x2048 ![0, 1, 2, 3] bcast_S4x250x80x1_S4x250x80x2048_0_1_2_3 (broadcastInDim S4x250x80x1 ![0, 1, 2] bcast_S4x250x80_S4x250x80x1_0_1_2 (maximumf (broadcastInDim S4x250x80 ![] bcast_S_S4x250x80 (constant S_ .f32 0xFF800000#32)) (Host.reduce FloatOps.maximumf y (constant S_ .f32 0xFF800000#32) reducesTo_S4x250x80x2048_S4x250x80_d3 h_S_)))))
    (broadcastInDim S4x250x80x2048 ![0, 1, 2, 3] bcast_S4x250x80x1_S4x250x80x2048_0_1_2_3 (Host.log (broadcastInDim S4x250x80x1 ![0, 1, 2] bcast_S4x250x80_S4x250x80x1_0_1_2 (Host.reduceAdd (Host.exp (subf y (broadcastInDim S4x250x80x2048 ![0, 1, 2, 3] bcast_S4x250x80x1_S4x250x80x2048_0_1_2_3 (broadcastInDim S4x250x80x1 ![0, 1, 2] bcast_S4x250x80_S4x250x80x1_0_1_2 (maximumf (broadcastInDim S4x250x80 ![] bcast_S_S4x250x80 (constant S_ .f32 0xFF800000#32)) (Host.reduce FloatOps.maximumf y (constant S_ .f32 0xFF800000#32) reducesTo_S4x250x80x2048_S4x250x80_d3 h_S_)))))) (constant S_ .f32 0x00000000#32) reducesTo_S4x250x80x2048_S4x250x80_d3 h_S_))))

/-- The staged result is the log-softmax of the staged logits. -/
theorem logSoftmaxOf_logits (x0 : (⟨S4x80x512, .f32⟩ : BufTy).Contents (Elt F)) (x1 : (⟨S4x250x512, .f32⟩ : BufTy).Contents (Elt F))
    (x2 : (⟨S1024x1024, .f32⟩ : BufTy).Contents (Elt F)) (x3 : (⟨S1024, .f32⟩ : BufTy).Contents (Elt F))
    (x4 : (⟨S1024x2048, .f32⟩ : BufTy).Contents (Elt F)) (x5 : (⟨S2048, .f32⟩ : BufTy).Contents (Elt F)) :
    logSoftmaxOf (ReadP.val_main_v18 (F := F) x0 x1 x2 x3 x4 x5) = ReadP.val_main_v19 (F := F) x0 x1 x2 x3 x4 x5 := by
  generalize hy : ReadP.val_main_v18 (F := F) x0 x1 x2 x3 x4 x5 = y
  unfold logSoftmaxOf ReadP.val_main_v19 ReadP.val_main_call0_v10 ReadP.val_main_call0_v9 ReadP.val_main_call0_v8 ReadP.val_main_call0_v7
    ReadP.val_main_call0_v6 ReadP.val_main_call0_v5 ReadP.val_main_call0_v4 ReadP.val_main_call0_v3 ReadP.val_main_call0_v2
    ReadP.val_main_call0_v1 ReadP.val_main_call0_v0 ReadP.val_main_call0_cst ReadP.val_main_call0_cst_0 ReadP.val_main_call0_cst_1
  rw [hy]

/-- After the first 20 operations the logits' buffer holds the staged logits of the arguments. -/
theorem after_logits (m : (ℓ : Loc nD τ sig) → Buf (Elt F) ℓ) (c : Dev nD) :
    after (opsA (F := F)) (launchContents m c) (Proc.devRef .tc main_v18)
      = ReadP.val_main_v18 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) := by
  after_results_simp
  rfl

/-- Contents carried to a buffer's own type and back are the contents. -/
theorem ofBuf_toBuf {T : BufTy} (x : TRef sig T) (v : T.Contents (Elt F)) : x.ofBuf (x.toBuf v) = v := by
  unfold TRef.ofBuf TRef.toBuf
  rw [cast_cast, cast_eq]

/-- At the logits' buffer and at the result buffer the carrying is the identity: the buffer's type IS the value's. -/
theorem ofBuf_logits (y : (⟨S4x250x80x2048, .f32⟩ : BufTy).Contents (Elt F)) :
    (TRef.of (T := ⟨S4x250x80x2048, .f32⟩) main_v18).ofBuf y = y := rfl
theorem toBuf_result (y : (⟨S4x250x80x2048, .f32⟩ : BufTy).Contents (Elt F)) :
    (TRef.of (T := ⟨S4x250x80x2048, .f32⟩) main_v19).toBuf y = y := rfl

/-- The last 15 operations, from any contents, leave the log-softmax of the logits' buffer in the result buffer. -/
theorem after_logSoftmax (W : Valuation τ sig (Elt F)) :
    after (opsB (F := F)) W (Proc.devRef .tc main_v19)
      = (TRef.of (T := ⟨S4x250x80x2048, .f32⟩) main_v19).toBuf (logSoftmaxOf ((TRef.of (T := ⟨S4x250x80x2048, .f32⟩) main_v18).ofBuf (W (Proc.devRef .tc main_v18)))) := by
  after_results_simp
  simp only [ofBuf_toBuf]
  unfold logSoftmaxOf
  rfl

/-- What the result buffer holds after the whole line. -/
theorem after_result (m : (ℓ : Loc nD τ sig) → Buf (Elt F) ℓ) (c : Dev nD) :
    after (ops (F := F)) (launchContents m c) (Proc.devRef .tc main_v19)
      = ReadP.val_main_v19 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) := by
  rw [ops_eq, after_append, after_logSoftmax, after_logits, toBuf_result, ofBuf_logits]
  exact logSoftmaxOf_logits _ _ _ _ _ _

set_option maxHeartbeats 2000000 in
/-- On every device, from any memory with zero counters: every weakly fair execution of the reference terminates with
    the result buffer at the staged value of the arguments and the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v19) = ReadP.val_main_v19 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun _ h c => ⟨(h c main_v19).trans (after_result m c),
      (h c main_arg0).trans (by after_results_simp <;> rfl),
      (h c main_arg1).trans (by after_results_simp <;> rfl),
      (h c main_arg2).trans (by after_results_simp <;> rfl),
      (h c main_arg3).trans (by after_results_simp <;> rfl),
      (h c main_arg4).trans (by after_results_simp <;> rfl),
      (h c main_arg5).trans (by after_results_simp <;> rfl)⟩)
    (run_seq scopedRefs_eq scopedSems_eq defs main (fun _ => ops) main_eq (fun _ => ops_sub) m ρ)

end Cert.ReferenceIdeal.RunValue

end
-- ==== Proof.Spec.lean ====
/-
  The joint network's value, one output row at a time, on the extended reals.

  For a batch entry, a predictor row `P` and an encoder row `E` (512 numbers each), the hidden
  vector is `h j = tanh (∑ k, P k · W1[k, j] + ∑ k, E k · W1[512 + k, j] + b1 j)` (the first linear
  layer applied to the concatenation of the two rows, written as two half products), the logits are
  `L v = ∑ j, h j · W2[j, v] + b2 v`, and the result is the log-softmax of the logits over the vocabulary:
  `L v - M - log (∑ w, exp (L w - M))` with `M` the maximum of the logits (folded from `-∞`).
  Both programs compute exactly this composition, so no algebraic law and no finiteness is needed to join them:
  the two sides differ only in how an index reaches each row (tiling, padding, reshapes).
-/
import Idealize.ShloMosaic.PureOps.Ideal
import Idealize.ShloMosaic.PureOps.Ideal.Laws
import Idealize.ShloMosaic.Lib.ValueIdx

noncomputable section

namespace Cert.Joint

open Idealize.ShloMosaic Idealize.ShloMosaic.ValueIdx

/-- Row `512 + k` of the first layer's weight: the half that multiplies the encoder row. -/
abbrev lo512 (k : Fin 512) : Fin 1024 := ⟨k.val, by have := k.isLt; omega⟩
abbrev hi512 (k : Fin 512) : Fin 1024 := ⟨512 + k.val, by have := k.isLt; omega⟩

/-- The hidden unit `j`: tanh of the two half products plus the bias. -/
def hidden (P E : Fin 512 → EReal) (W1 : (⟨2, ![1024, 1024]⟩ : Shape).Idx → EReal)
    (b1 : (⟨1, ![1024]⟩ : Shape).Idx → EReal) (j : Fin 1024) : EReal :=
  Ideal.tanh ((∑ k : Fin 512, P k * W1 (ix2 (lo512 k) j)) + (∑ k : Fin 512, E k * W1 (ix2 (hi512 k) j)) + b1 (ix1 j))

/-- The logit of vocabulary entry `v`. -/
def logit (P E : Fin 512 → EReal) (W1 : (⟨2, ![1024, 1024]⟩ : Shape).Idx → EReal)
    (b1 : (⟨1, ![1024]⟩ : Shape).Idx → EReal) (W2 : (⟨2, ![1024, 2048]⟩ : Shape).Idx → EReal)
    (b2 : (⟨1, ![2048]⟩ : Shape).Idx → EReal) (v : Fin 2048) : EReal :=
  (∑ j : Fin 1024, hidden P E W1 b1 j * W2 (ix2 j v)) + b2 (ix1 v)

/-- A row's maximum, folded from the pattern of `-∞` (left as its pattern: it is never evaluated). -/
def rowMax (L : Fin 2048 → EReal) : EReal :=
  (Finset.univ : Finset (Fin 2048)).fold max (Ideal.ofBits .f32 0xFF800000#32) L

/-- Log-softmax of a row, in the shifted form both programs use. -/
def logSoftmax (L : Fin 2048 → EReal) (v : Fin 2048) : EReal :=
  (L v - rowMax L) - Ideal.log (∑ w : Fin 2048, Ideal.exp (L w - rowMax L))

/-- One output row. -/
def outRow (P E : Fin 512 → EReal) (W1 : (⟨2, ![1024, 1024]⟩ : Shape).Idx → EReal)
    (b1 : (⟨1, ![1024]⟩ : Shape).Idx → EReal) (W2 : (⟨2, ![1024, 2048]⟩ : Shape).Idx → EReal)
    (b2 : (⟨1, ![2048]⟩ : Shape).Idx → EReal) (v : Fin 2048) : EReal :=
  logSoftmax (logit P E W1 b1 W2 b2) v

/-- The whole result over `T` encoder steps: entry (n, t, u, v) is the output row of predictor row (n, u) and
    encoder row (n, t), at v. -/
def G (T : Nat) (hp : (⟨3, ![4, 80, 512]⟩ : Shape).Idx → EReal) (he : (⟨3, ![4, T, 512]⟩ : Shape).Idx → EReal)
    (W1 : (⟨2, ![1024, 1024]⟩ : Shape).Idx → EReal) (b1 : (⟨1, ![1024]⟩ : Shape).Idx → EReal)
    (W2 : (⟨2, ![1024, 2048]⟩ : Shape).Idx → EReal) (b2 : (⟨1, ![2048]⟩ : Shape).Idx → EReal) :
    (⟨4, ![4, T, 80, 2048]⟩ : Shape).Idx → EReal :=
  fun i => outRow (fun k => hp (ix3 (i 0) (i 2) k)) (fun k => he (ix3 (i 0) (i 1) k)) W1 b1 W2 b2 (i 3)

theorem G_apply (T : Nat) (hp : (⟨3, ![4, 80, 512]⟩ : Shape).Idx → EReal) (he : (⟨3, ![4, T, 512]⟩ : Shape).Idx → EReal)
    (W1 : (⟨2, ![1024, 1024]⟩ : Shape).Idx → EReal) (b1 : (⟨1, ![1024]⟩ : Shape).Idx → EReal)
    (W2 : (⟨2, ![1024, 2048]⟩ : Shape).Idx → EReal) (b2 : (⟨1, ![2048]⟩ : Shape).Idx → EReal)
    (n : Fin 4) (t : Fin T) (u : Fin 80) (v : Fin 2048) :
    G T hp he W1 b1 W2 b2 (ix4 n t u v)
      = outRow (fun k => hp (ix3 n u k)) (fun k => he (ix3 n t k)) W1 b1 W2 b2 v := rfl

/-- The folded maximum is at least its starting value, so taking the maximum with that value again changes nothing. -/
theorem max_rowMax (L : Fin 2048 → EReal) : max (Ideal.ofBits .f32 0xFF800000#32) (rowMax L) = rowMax L :=
  max_eq_right ((Finset.le_fold_max _).mpr (Or.inl le_rfl))

/-- Dividing by the pattern of `1.0` is the identity on every extended real. -/
theorem div_onePat (x : EReal) : Ideal.div x (Ideal.ofBits .f32 0x3F800000#32) = x := by
  have h1 : Ideal.ofBits .f32 0x3F800000#32 = ((1 : ℝ) : EReal) := by
    rw [EReal.coe_one]; exact IdealRules.sign_bit.ideal_onePat .f32
  rw [h1, Ideal.div_coe one_ne_zero, one_div, inv_one, EReal.coe_one, mul_one]

end Cert.Joint

end
-- ==== Proof.RefValue.lean ====
/-
  The reference program, read at the exact extended reals, is the joint network's row function.

  Every operation of the reference is read at an index from its operands; here those readings are composed, stage by
  stage, at an index given by its coordinates (n, t, u, v): the two half products of the first layer (the predictor
  row against rows 0 … 511 of the weight, the encoder row against rows 512 … 1023), their broadcast sum with the bias
  under tanh (the hidden vector), the second product with its bias (the logits; the division by 1.0 is the identity),
  the row maximum folded from the pattern of `-∞`, the shifted logits, the sum of their exponentials, and the final
  difference with its logarithm. Each stage is exactly the specification's term, so no law of arithmetic is used
  beyond: dividing by one, `max` with the fold's own starting value, and adding to zero.
-/
import proofs.«178570_j82721070121385_1_alg».proof.Proof.RefRead
import proofs.«178570_j82721070121385_1_alg».proof.Proof.Spec
import Idealize.ShloMosaic.Lib.ValueIdx
import Idealize.ShloMosaic.Lib.Pipeline.Value
import Idealize.ShloMosaic.PureOps.Ideal.Laws

namespace Cert.ReferenceIdeal.RefValue
open Idealize.ShloMosaic Idealize.ShloMosaic.ValueIdx Cert.ReferenceIdeal Cert.ReferenceIdeal.ReadP

section Stages

variable (x0 : (⟨S4x80x512, .f32⟩ : BufTy).Contents (Elt Ideal)) (x1 : (⟨S4x250x512, .f32⟩ : BufTy).Contents (Elt Ideal))
  (x2 : (⟨S1024x1024, .f32⟩ : BufTy).Contents (Elt Ideal)) (x3 : (⟨S1024, .f32⟩ : BufTy).Contents (Elt Ideal))
  (x4 : (⟨S1024x2048, .f32⟩ : BufTy).Contents (Elt Ideal)) (x5 : (⟨S2048, .f32⟩ : BufTy).Contents (Elt Ideal))

/-- The predictor half product at (n, u, j): the predictor row against rows 0 … 511 of the first weight. -/
theorem v1_at (n : Fin 4) (u : Fin 80) (j : Fin 1024) :
    val_main_v1 (F := Ideal) x0 x2 (ix3 n u j) = ∑ k : Fin 512, x0 (ix3 n u k) * x2 (ix2 (Cert.Joint.lo512 k) j) := by
  rw [val_main_v1_apply]
  refine Finset.sum_congr rfl fun k _ => ?_
  rw [val_main_v0_apply]
  have e1 : lidx_main_v1 (ix3 n u j) k = ix3 n u k :=
    funext fun a => Fin.ext (by match a with | ⟨0, _⟩ => rfl | ⟨1, _⟩ => rfl | ⟨2, _⟩ => rfl)
  have e2 : idx_main_v0 (ridx_main_v1 (ix3 n u j) k) = ix2 (Cert.Joint.lo512 k) j :=
    funext fun a => Fin.ext (by match a with | ⟨0, _⟩ => rfl | ⟨1, _⟩ => rfl)
  rw [e1, e2]

/-- The encoder half product at (n, t, j): the encoder row against rows 512 … 1023 of the first weight. -/
theorem v3_at (n : Fin 4) (t : Fin 250) (j : Fin 1024) :
    val_main_v3 (F := Ideal) x1 x2 (ix3 n t j) = ∑ k : Fin 512, x1 (ix3 n t k) * x2 (ix2 (Cert.Joint.hi512 k) j) := by
  rw [val_main_v3_apply]
  refine Finset.sum_congr rfl fun k _ => ?_
  rw [val_main_v2_apply]
  have e1 : lidx_main_v3 (ix3 n t j) k = ix3 n t k :=
    funext fun a => Fin.ext (by match a with | ⟨0, _⟩ => rfl | ⟨1, _⟩ => rfl | ⟨2, _⟩ => rfl)
  have e2 : idx_main_v2 (ridx_main_v3 (ix3 n t j) k) = ix2 (Cert.Joint.hi512 k) j :=
    funext fun a => Fin.ext (by match a with | ⟨0, _⟩ => rfl | ⟨1, _⟩ => rfl)
  rw [e1, e2]

/-- The hidden unit at (n, t, u, j) is the specification's, on predictor row (n, u) and encoder row (n, t). -/
theorem v12_at (n : Fin 4) (t : Fin 250) (u : Fin 80) (j : Fin 1024) :
    val_main_v12 (F := Ideal) x0 x1 x2 x3 (ix4 n t u j)
      = Cert.Joint.hidden (fun k => x0 (ix3 n u k)) (fun k => x1 (ix3 n t k)) x2 x3 j := by
  rw [val_main_v12_apply, val_main_v11_apply, val_main_v8_apply, val_main_v6_apply, val_main_v4_apply,
    val_main_v7_apply, val_main_v5_apply, val_main_v10_apply, val_main_v9_apply]
  have e1 : idx_main_v4 (idx_main_v6 (ix4 n t u j)) = ix3 n u j :=
    funext fun a => Fin.ext (by match a with | ⟨0, _⟩ => rfl | ⟨1, _⟩ => rfl | ⟨2, _⟩ => rfl)
  have e2 : idx_main_v5 (idx_main_v7 (ix4 n t u j)) = ix3 n t j :=
    funext fun a => Fin.ext (by match a with | ⟨0, _⟩ => rfl | ⟨1, _⟩ => rfl | ⟨2, _⟩ => rfl)
  have e3 : idx_main_v9 (idx_main_v10 (ix4 n t u j)) = ix1 j :=
    funext fun a => Fin.ext (by match a with | ⟨0, _⟩ => rfl)
  rw [e1, e2, e3, v1_at, v3_at]
  rfl

/-- The logit at (n, t, u, v): the hidden vector against column v of the second weight, plus the bias; the division by
    the pattern of 1.0 changes nothing. -/
theorem v18_at (n : Fin 4) (t : Fin 250) (u : Fin 80) (v : Fin 2048) :
    val_main_v18 (F := Ideal) x0 x1 x2 x3 x4 x5 (ix4 n t u v)
      = Cert.Joint.logit (fun k => x0 (ix3 n u k)) (fun k => x1 (ix3 n t k)) x2 x3 x4 x5 v := by
  rw [val_main_v18_apply, val_main_v17_apply, val_main_cst_apply, val_main_v16_apply, val_main_v13_apply,
    val_main_v15_apply, val_main_v14_apply]
  have e3 : idx_main_v14 (idx_main_v15 (ix4 n t u v)) = ix1 v :=
    funext fun a => Fin.ext (by match a with | ⟨0, _⟩ => rfl)
  rw [e3]
  refine (Cert.Joint.div_onePat _).trans ?_
  unfold Cert.Joint.logit
  refine congrArg (· + x5 (ix1 v)) (Finset.sum_congr rfl fun j _ => ?_)
  have e1 : lidx_main_v13 (ix4 n t u v) j = ix4 n t u j :=
    funext fun a => Fin.ext (by match a with | ⟨0, _⟩ => rfl | ⟨1, _⟩ => rfl | ⟨2, _⟩ => rfl | ⟨3, _⟩ => rfl)
  have e2 : ridx_main_v13 (ix4 n t u v) j = ix2 j v :=
    funext fun a => Fin.ext (by match a with | ⟨0, _⟩ => rfl | ⟨1, _⟩ => rfl)
  rw [e1, e2, v12_at]

/-- The last axis of the logits' shape reduces onto the leading three. -/
theorem hred : S4x250x80x2048.Reduces [3] S4x250x80 := by decide

/-- The row maximum at (n, t, u): the fold of `max` from the pattern of `-∞` over the 2048 logits of the row. -/
theorem max_at (n : Fin 4) (t : Fin 250) (u : Fin 80) :
    val_main_call0_v0 (F := Ideal) x0 x1 x2 x3 x4 x5 (ix3 n t u)
      = Cert.Joint.rowMax (Cert.Joint.logit (fun k => x0 (ix3 n u k)) (fun k => x1 (ix3 n t k)) x2 x3 x4 x5) := by
  unfold val_main_call0_v0
  refine (Host.reduce_eq_fold_single (FloatOps.maximumf (F := Ideal) (φ := .f32)) (val_main_v18 (F := Ideal) x0 x1 x2 x3 x4 x5)
    (val_main_call0_cst (F := Ideal)) Gen.reducesTo_S4x250x80x2048_S4x250x80_d3 hred Gen.h_S_ (ix3 n t u)).trans ?_
  unfold Cert.Joint.rowMax
  refine Finset.fold_congr fun w _ => ?_
  refine Eq.trans ?_ (v18_at x0 x1 x2 x3 x4 x5 n t u w)
  exact congrArg (val_main_v18 (F := Ideal) x0 x1 x2 x3 x4 x5)
    (funext fun a => Fin.ext (by match a with | ⟨0, _⟩ => rfl | ⟨1, _⟩ => rfl | ⟨2, _⟩ => rfl | ⟨3, _⟩ => rfl))

/-- The shifted logit at (n, t, u, v): the logit minus the row maximum (the outer maximum with the pattern of `-∞`
    is absorbed, the fold having started there). -/
theorem v5_at (n : Fin 4) (t : Fin 250) (u : Fin 80) (v : Fin 2048) :
    val_main_call0_v5 (F := Ideal) x0 x1 x2 x3 x4 x5 (ix4 n t u v)
      = Cert.Joint.logit (fun k => x0 (ix3 n u k)) (fun k => x1 (ix3 n t k)) x2 x3 x4 x5 v
        - Cert.Joint.rowMax (Cert.Joint.logit (fun k => x0 (ix3 n u k)) (fun k => x1 (ix3 n t k)) x2 x3 x4 x5) := by
  rw [val_main_call0_v5_apply, val_main_call0_v4_apply, val_main_call0_v3_apply, val_main_call0_v2_apply,
    val_main_call0_v1_apply, val_main_call0_cst_0_apply]
  have e : idx_main_call0_v3 (idx_main_call0_v4 (ix4 n t u v)) = ix3 n t u :=
    funext fun a => Fin.ext (by match a with | ⟨0, _⟩ => rfl | ⟨1, _⟩ => rfl | ⟨2, _⟩ => rfl)
  rw [e, max_at, v18_at]
  exact congrArg (_ - ·) (Cert.Joint.max_rowMax _)

/-- The sum of exponentials at (n, t, u): over the 2048 shifted logits of the row (the sum starts from the pattern of zero). -/
theorem v7_at (n : Fin 4) (t : Fin 250) (u : Fin 80) :
    val_main_call0_v7 (F := Ideal) x0 x1 x2 x3 x4 x5 (ix3 n t u)
      = ∑ w : Fin 2048, Ideal.exp (Cert.Joint.logit (fun k => x0 (ix3 n u k)) (fun k => x1 (ix3 n t k)) x2 x3 x4 x5 w
        - Cert.Joint.rowMax (Cert.Joint.logit (fun k => x0 (ix3 n u k)) (fun k => x1 (ix3 n t k)) x2 x3 x4 x5)) := by
  rw [val_main_call0_v7_apply, val_main_call0_cst_1_apply]
  refine (congrArg (· + _) Ideal.ofBits_zero_f32).trans ((zero_add _).trans (Finset.sum_congr rfl fun w _ => ?_))
  rw [val_main_call0_v6_apply]
  have e : idx_main_call0_v7 (ix3 n t u) w = ix4 n t u w :=
    funext fun a => Fin.ext (by match a with | ⟨0, _⟩ => rfl | ⟨1, _⟩ => rfl | ⟨2, _⟩ => rfl | ⟨3, _⟩ => rfl)
  rw [e, v5_at]
  rfl

end Stages

/-- The reference's result, as a function of its six arguments, is the joint network's value over the 250 encoder steps. -/
theorem ref_eq (x0 : (⟨S4x80x512, .f32⟩ : BufTy).Contents (Elt Ideal)) (x1 : (⟨S4x250x512, .f32⟩ : BufTy).Contents (Elt Ideal))
    (x2 : (⟨S1024x1024, .f32⟩ : BufTy).Contents (Elt Ideal)) (x3 : (⟨S1024, .f32⟩ : BufTy).Contents (Elt Ideal))
    (x4 : (⟨S1024x2048, .f32⟩ : BufTy).Contents (Elt Ideal)) (x5 : (⟨S2048, .f32⟩ : BufTy).Contents (Elt Ideal)) :
    val_main_v19 (F := Ideal) x0 x1 x2 x3 x4 x5 = Cert.Joint.G 250 x0 x1 x2 x3 x4 x5 := by
  funext i
  obtain ⟨n, t, u, v, rfl⟩ : ∃ (n : Fin 4) (t : Fin 250) (u : Fin 80) (v : Fin 2048), i = ix4 n t u v :=
    ⟨i 0, i 1, i 2, i 3, eq_ix4 i⟩
  rw [Cert.Joint.G_apply, val_main_v19_apply, val_main_call0_v10_apply, val_main_call0_v9_apply, val_main_call0_v8_apply]
  have e : idx_main_call0_v8 (idx_main_call0_v10 (ix4 n t u v)) = ix3 n t u :=
    funext fun a => Fin.ext (by match a with | ⟨0, _⟩ => rfl | ⟨1, _⟩ => rfl | ⟨2, _⟩ => rfl)
  rw [e, v7_at, v5_at]
  rfl

end Cert.ReferenceIdeal.RefValue
-- ==== Proof.KernelPay.lean ====
/-
  The kernel body's value, one element at a time, on the extended reals.

  The body takes a predictor block (80 rows of 512 numbers), an encoder block (8 rows of 512), the first layer's weight
  W1 (1024 x 1024) and bias b1, the second layer's weight W2 (1024 x 2048) and bias b2. It multiplies the predictor rows
  by the upper half of W1 and the encoder rows by the lower half, adds the two products over every pair (tt, u) of an
  encoder row and a predictor row together with b1, takes tanh, flattens the 8 x 80 pairs into 640 rows, multiplies by W2,
  adds b2, and finishes with the shifted log-softmax of each row: the row's maximum is subtracted, then the logarithm of
  the sum of the exponentials of the shifted row.

  Read at the exact extended reals every operation is its textbook one and a change of format is the identity, so the
  element at (tt, u, v) is literally the composition the specification writes for predictor row u and encoder row tt:
      hidden j = tanh (sum_k P[u, k] * W1[k, j] + sum_k E[tt, k] * W1[512 + k, j] + b1[j]),
      logit w  = sum_j hidden j * W2[j, w] + b2[w],
      result   = (logit v - M) - log (sum_w exp (logit w - M)),   M the fold of max over the row from the pattern of -oo.
  No algebraic law is used: each layout operation (a change of shape, a slice, a broadcast) is read at an index as its
  operand at one index, each product as the sum over its contracted coordinate, each reduction as the fold or sum over
  the vocabulary coordinate, and the pieces are joined in the order the body computes them.
-/
import proofs.«178570_j82721070121385_1_alg».proof.Proof.Gen.KernelIdeal.Skeleton
import proofs.«178570_j82721070121385_1_alg».proof.Proof.Spec
import Idealize.ShloMosaic.Lib.ValueIdx
import Idealize.ShloMosaic.Lib.ValueLayout
import Idealize.ShloMosaic.Lib.Pipeline.Value
import Idealize.ShloMosaic.PureOps.Ideal.Laws

namespace Cert.KernelIdeal.PayValue
open Idealize.ShloMosaic Idealize.ShloMosaic.ValueIdx Cert.KernelIdeal Cert.KernelIdeal.Gen

/-! ## The three matrix products, each read at an output index -/

/-- The left operand's index of the predictor product keeps the output's row. -/
theorem mm_pred_l0 (i : S80x1024.Idx) (q : dot_S80x512_S512x1024_S80x1024_1_0_0_1_n_n.contr.Idx) : (dot_S80x512_S512x1024_S80x1024_1_0_0_1_n_n.lhsIdx i q 0).val = (i 0).val := by
  unfold DotDims.lhsIdx
  rw [dif_neg (show ¬(0 : Fin S80x512.rank) ∈ dot_S80x512_S512x1024_S80x1024_1_0_0_1_n_n.lhsBatch by decide),
    dif_pos (show (0 : Fin S80x512.rank) ∈ dot_S80x512_S512x1024_S80x1024_1_0_0_1_n_n.lhsNonContracting by decide)]
  rfl

/-- The right operand's index of the predictor product keeps the output's column. -/
theorem mm_pred_r1 (i : S80x1024.Idx) (q : dot_S80x512_S512x1024_S80x1024_1_0_0_1_n_n.contr.Idx) : (dot_S80x512_S512x1024_S80x1024_1_0_0_1_n_n.rhsIdx i q 1).val = (i 1).val := by
  unfold DotDims.rhsIdx
  rw [dif_neg (show ¬(1 : Fin S512x1024.rank) ∈ dot_S80x512_S512x1024_S80x1024_1_0_0_1_n_n.rhsBatch by decide),
    dif_pos (show (1 : Fin S512x1024.rank) ∈ dot_S80x512_S512x1024_S80x1024_1_0_0_1_n_n.rhsNonContracting by decide)]
  rfl

/-- The predictor product (a 80 x 512 matrix times a 512 x 1024 one, accumulated into zero) at row r, column c:
the sum over k of A[r, k] * B[k, c]. -/
theorem mm_pred (A : FVec Ideal S80x512 .bf16) (B : FVec Ideal S512x1024 .bf16) (r : Fin 80) (c : Fin 1024) :
    matmul dot_S80x512_S512x1024_S80x1024_1_0_0_1_n_n none A B (constant (F := Ideal) S80x1024 .f32 0x00000000#32) (ix2 r c)
      = ∑ k : Fin 512, A (ix2 r k) * B (ix2 k c) := by
  simp only [matmul]
  rw [Ideal.matmul_constant_zero_apply, ← Equiv.sum_comp (contrEquiv1 dot_S80x512_S512x1024_S80x1024_1_0_0_1_n_n 512 rfl rfl).symm]
  refine Finset.sum_congr rfl fun k _ => ?_
  have hk := contrEquiv1_symm_val dot_S80x512_S512x1024_S80x1024_1_0_0_1_n_n 512 rfl rfl k
  have el : dot_S80x512_S512x1024_S80x1024_1_0_0_1_n_n.lhsIdx (ix2 r c) ((contrEquiv1 dot_S80x512_S512x1024_S80x1024_1_0_0_1_n_n 512 rfl rfl).symm k) = ix2 r k :=
    funext fun a => Fin.ext (by
      match a with
      | ⟨0, _⟩ => exact mm_pred_l0 _ _
      | ⟨1, _⟩ => exact (dot_S80x512_S512x1024_S80x1024_1_0_0_1_n_n.lhsIdx_val_of_single rfl _ _).trans hk)
  have er : dot_S80x512_S512x1024_S80x1024_1_0_0_1_n_n.rhsIdx (ix2 r c) ((contrEquiv1 dot_S80x512_S512x1024_S80x1024_1_0_0_1_n_n 512 rfl rfl).symm k) = ix2 k c :=
    funext fun a => Fin.ext (by
      match a with
      | ⟨0, _⟩ => exact (dot_S80x512_S512x1024_S80x1024_1_0_0_1_n_n.rhsIdx_val_of_single rfl _ _).trans hk
      | ⟨1, _⟩ => exact mm_pred_r1 _ _)
  rw [el, er]

/-- The left operand's index of the encoder product keeps the output's row. -/
theorem mm_enc_l0 (i : S8x1024.Idx) (q : dot_S8x512_S512x1024_S8x1024_1_0_0_1_n_n.contr.Idx) : (dot_S8x512_S512x1024_S8x1024_1_0_0_1_n_n.lhsIdx i q 0).val = (i 0).val := by
  unfold DotDims.lhsIdx
  rw [dif_neg (show ¬(0 : Fin S8x512.rank) ∈ dot_S8x512_S512x1024_S8x1024_1_0_0_1_n_n.lhsBatch by decide),
    dif_pos (show (0 : Fin S8x512.rank) ∈ dot_S8x512_S512x1024_S8x1024_1_0_0_1_n_n.lhsNonContracting by decide)]
  rfl

/-- The right operand's index of the encoder product keeps the output's column. -/
theorem mm_enc_r1 (i : S8x1024.Idx) (q : dot_S8x512_S512x1024_S8x1024_1_0_0_1_n_n.contr.Idx) : (dot_S8x512_S512x1024_S8x1024_1_0_0_1_n_n.rhsIdx i q 1).val = (i 1).val := by
  unfold DotDims.rhsIdx
  rw [dif_neg (show ¬(1 : Fin S512x1024.rank) ∈ dot_S8x512_S512x1024_S8x1024_1_0_0_1_n_n.rhsBatch by decide),
    dif_pos (show (1 : Fin S512x1024.rank) ∈ dot_S8x512_S512x1024_S8x1024_1_0_0_1_n_n.rhsNonContracting by decide)]
  rfl

/-- The encoder product (a 8 x 512 matrix times a 512 x 1024 one, accumulated into zero) at row r, column c:
the sum over k of A[r, k] * B[k, c]. -/
theorem mm_enc (A : FVec Ideal S8x512 .bf16) (B : FVec Ideal S512x1024 .bf16) (r : Fin 8) (c : Fin 1024) :
    matmul dot_S8x512_S512x1024_S8x1024_1_0_0_1_n_n none A B (constant (F := Ideal) S8x1024 .f32 0x00000000#32) (ix2 r c)
      = ∑ k : Fin 512, A (ix2 r k) * B (ix2 k c) := by
  simp only [matmul]
  rw [Ideal.matmul_constant_zero_apply, ← Equiv.sum_comp (contrEquiv1 dot_S8x512_S512x1024_S8x1024_1_0_0_1_n_n 512 rfl rfl).symm]
  refine Finset.sum_congr rfl fun k _ => ?_
  have hk := contrEquiv1_symm_val dot_S8x512_S512x1024_S8x1024_1_0_0_1_n_n 512 rfl rfl k
  have el : dot_S8x512_S512x1024_S8x1024_1_0_0_1_n_n.lhsIdx (ix2 r c) ((contrEquiv1 dot_S8x512_S512x1024_S8x1024_1_0_0_1_n_n 512 rfl rfl).symm k) = ix2 r k :=
    funext fun a => Fin.ext (by
      match a with
      | ⟨0, _⟩ => exact mm_enc_l0 _ _
      | ⟨1, _⟩ => exact (dot_S8x512_S512x1024_S8x1024_1_0_0_1_n_n.lhsIdx_val_of_single rfl _ _).trans hk)
  have er : dot_S8x512_S512x1024_S8x1024_1_0_0_1_n_n.rhsIdx (ix2 r c) ((contrEquiv1 dot_S8x512_S512x1024_S8x1024_1_0_0_1_n_n 512 rfl rfl).symm k) = ix2 k c :=
    funext fun a => Fin.ext (by
      match a with
      | ⟨0, _⟩ => exact (dot_S8x512_S512x1024_S8x1024_1_0_0_1_n_n.rhsIdx_val_of_single rfl _ _).trans hk
      | ⟨1, _⟩ => exact mm_enc_r1 _ _)
  rw [el, er]

/-- The left operand's index of the output product keeps the output's row. -/
theorem mm_out_l0 (i : S640x2048.Idx) (q : dot_S640x1024_S1024x2048_S640x2048_1_0_0_1_n_n.contr.Idx) : (dot_S640x1024_S1024x2048_S640x2048_1_0_0_1_n_n.lhsIdx i q 0).val = (i 0).val := by
  unfold DotDims.lhsIdx
  rw [dif_neg (show ¬(0 : Fin S640x1024.rank) ∈ dot_S640x1024_S1024x2048_S640x2048_1_0_0_1_n_n.lhsBatch by decide),
    dif_pos (show (0 : Fin S640x1024.rank) ∈ dot_S640x1024_S1024x2048_S640x2048_1_0_0_1_n_n.lhsNonContracting by decide)]
  rfl

/-- The right operand's index of the output product keeps the output's column. -/
theorem mm_out_r1 (i : S640x2048.Idx) (q : dot_S640x1024_S1024x2048_S640x2048_1_0_0_1_n_n.contr.Idx) : (dot_S640x1024_S1024x2048_S640x2048_1_0_0_1_n_n.rhsIdx i q 1).val = (i 1).val := by
  unfold DotDims.rhsIdx
  rw [dif_neg (show ¬(1 : Fin S1024x2048.rank) ∈ dot_S640x1024_S1024x2048_S640x2048_1_0_0_1_n_n.rhsBatch by decide),
    dif_pos (show (1 : Fin S1024x2048.rank) ∈ dot_S640x1024_S1024x2048_S640x2048_1_0_0_1_n_n.rhsNonContracting by decide)]
  rfl

/-- The output product (a 640 x 1024 matrix times a 1024 x 2048 one, accumulated into zero) at row r, column c:
the sum over k of A[r, k] * B[k, c]. -/
theorem mm_out (A : FVec Ideal S640x1024 .bf16) (B : FVec Ideal S1024x2048 .bf16) (r : Fin 640) (c : Fin 2048) :
    matmul dot_S640x1024_S1024x2048_S640x2048_1_0_0_1_n_n none A B (constant (F := Ideal) S640x2048 .f32 0x00000000#32) (ix2 r c)
      = ∑ k : Fin 1024, A (ix2 r k) * B (ix2 k c) := by
  simp only [matmul]
  rw [Ideal.matmul_constant_zero_apply, ← Equiv.sum_comp (contrEquiv1 dot_S640x1024_S1024x2048_S640x2048_1_0_0_1_n_n 1024 rfl rfl).symm]
  refine Finset.sum_congr rfl fun k _ => ?_
  have hk := contrEquiv1_symm_val dot_S640x1024_S1024x2048_S640x2048_1_0_0_1_n_n 1024 rfl rfl k
  have el : dot_S640x1024_S1024x2048_S640x2048_1_0_0_1_n_n.lhsIdx (ix2 r c) ((contrEquiv1 dot_S640x1024_S1024x2048_S640x2048_1_0_0_1_n_n 1024 rfl rfl).symm k) = ix2 r k :=
    funext fun a => Fin.ext (by
      match a with
      | ⟨0, _⟩ => exact mm_out_l0 _ _
      | ⟨1, _⟩ => exact (dot_S640x1024_S1024x2048_S640x2048_1_0_0_1_n_n.lhsIdx_val_of_single rfl _ _).trans hk)
  have er : dot_S640x1024_S1024x2048_S640x2048_1_0_0_1_n_n.rhsIdx (ix2 r c) ((contrEquiv1 dot_S640x1024_S1024x2048_S640x2048_1_0_0_1_n_n 1024 rfl rfl).symm k) = ix2 k c :=
    funext fun a => Fin.ext (by
      match a with
      | ⟨0, _⟩ => exact (dot_S640x1024_S1024x2048_S640x2048_1_0_0_1_n_n.rhsIdx_val_of_single rfl _ _).trans hk
      | ⟨1, _⟩ => exact mm_out_r1 _ _)
  rw [el, er]

/-! ## The layout operations of the body, each read at an index given by coordinates -/

section Layout
variable {α : Type}

/-- Row tt * 80 + u of the 640-row matrix the body flattens the (tt, u) pairs into. -/
def row (tt : Fin 8) (u : Fin 80) : Fin 640 := ⟨tt.val * 80 + u.val, by omega⟩

/-- The 8 x 1024 encoder product viewed as 8 x 1 x 1024 reads row tt at (tt, _, j). -/
theorem sc_enc (X : S8x1024.Idx → α) (h : S8x1024.ShapeCasts S8x1x1024) (tt : Fin 8) (z : Fin 1) (j : Fin 1024) :
    shapeCast S8x1x1024 X h (ix3 tt z j) = X (ix2 tt j) :=
  shapeCast_apply X h _ _ (by
    have hz : z.val = 0 := by omega
    rw [Shape.rowMajor_val_three, Shape.rowMajor_val_two]
    show tt.val * 1024 + j.val = (tt.val * 1 + z.val) * 1024 + j.val
    rw [hz]; omega)

/-- The bias viewed as 1 x 1 x 1024 reads entry j at (_, _, j). -/
theorem sc_bias (X : S1024.Idx → α) (h : S1024.ShapeCasts S1x1x1024) (z z' : Fin 1) (j : Fin 1024) :
    shapeCast S1x1x1024 X h (ix3 z z' j) = X (ix1 j) :=
  shapeCast_apply X h _ _ (by
    have hz : z.val = 0 := by omega
    have hz' : z'.val = 0 := by omega
    rw [Shape.rowMajor_val_three, Shape.rowMajor_val_one]
    show j.val = (z.val * 1 + z'.val) * 1024 + j.val
    rw [hz, hz']; omega)

/-- The 8 x 80 x 1024 hidden block flattened to 640 x 1024 reads (tt, u, j) at row tt * 80 + u. -/
theorem sc_rows (X : S8x80x1024.Idx → α) (h : S8x80x1024.ShapeCasts S640x1024) (tt : Fin 8) (u : Fin 80) (j : Fin 1024) :
    shapeCast S640x1024 X h (ix2 (row tt u) j) = X (ix3 tt u j) :=
  shapeCast_apply X h _ _ (by
    rw [Shape.rowMajor_val_three, Shape.rowMajor_val_two]
    rfl)

/-- The 640 x 2048 logits viewed as 8 x 80 x 2048 read row tt * 80 + u at (tt, u, v). -/
theorem sc_unrows (X : S640x2048.Idx → α) (h : S640x2048.ShapeCasts S8x80x2048) (tt : Fin 8) (u : Fin 80) (v : Fin 2048) :
    shapeCast S8x80x2048 X h (ix3 tt u v) = X (ix2 (row tt u) v) :=
  shapeCast_apply X h _ _ (by
    rw [Shape.rowMajor_val_three, Shape.rowMajor_val_two]
    rfl)

/-- A per-row quantity given a trailing unit axis reads (tt, u) at (tt, u, _). -/
theorem sc_keep (X : S8x80.Idx → α) (h : S8x80.ShapeCasts S8x80x1) (tt : Fin 8) (u : Fin 80) (z : Fin 1) :
    shapeCast S8x80x1 X h (ix3 tt u z) = X (ix2 tt u) :=
  shapeCast_apply X h _ _ (by
    have hz : z.val = 0 := by omega
    rw [Shape.rowMajor_val_three, Shape.rowMajor_val_two]
    show tt.val * 80 + u.val = (tt.val * 80 + u.val) * 1 + z.val
    rw [hz]; omega)

/-- The predictor product, constant along the encoder axis. -/
theorem bc_pred (X : S1x80x1024.Idx → α) (h : S1x80x1024.Broadcasts S8x80x1024) (tt : Fin 8) (u : Fin 80) (j : Fin 1024) :
    broadcastTo S8x80x1024 X h (ix3 tt u j) = X (ix3 (0 : Fin 1) u j) :=
  broadcastTo_apply X h _ _ fun a => match a with
    | ⟨0, _⟩ => rfl
    | ⟨1, _⟩ => rfl
    | ⟨2, _⟩ => rfl

/-- The encoder product, constant along the predictor axis. -/
theorem bc_enc (X : S8x1x1024.Idx → α) (h : S8x1x1024.Broadcasts S8x80x1024) (tt : Fin 8) (u : Fin 80) (j : Fin 1024) :
    broadcastTo S8x80x1024 X h (ix3 tt u j) = X (ix3 tt (0 : Fin 1) j) :=
  broadcastTo_apply X h _ _ fun a => match a with
    | ⟨0, _⟩ => rfl
    | ⟨1, _⟩ => rfl
    | ⟨2, _⟩ => rfl

/-- The bias, constant along both row axes. -/
theorem bc_bias (X : S1x1x1024.Idx → α) (h : S1x1x1024.Broadcasts S8x80x1024) (tt : Fin 8) (u : Fin 80) (j : Fin 1024) :
    broadcastTo S8x80x1024 X h (ix3 tt u j) = X (ix3 (0 : Fin 1) (0 : Fin 1) j) :=
  broadcastTo_apply X h _ _ fun a => match a with
    | ⟨0, _⟩ => rfl
    | ⟨1, _⟩ => rfl
    | ⟨2, _⟩ => rfl

/-- A per-row quantity, constant along the vocabulary axis. -/
theorem bc_keep (X : S8x80x1.Idx → α) (h : S8x80x1.Broadcasts S8x80x2048) (tt : Fin 8) (u : Fin 80) (v : Fin 2048) :
    broadcastTo S8x80x2048 X h (ix3 tt u v) = X (ix3 tt u (0 : Fin 1)) :=
  broadcastTo_apply X h _ _ fun a => match a with
    | ⟨0, _⟩ => rfl
    | ⟨1, _⟩ => rfl
    | ⟨2, _⟩ => rfl

end Layout

/-! ## The two reductions over the vocabulary axis, read at a row -/

/-- The index (tt, u) with the vocabulary coordinate w put back is (tt, u, w). -/
theorem lift_row (h : S8x80x2048.Reduces [2] S8x80) (tt : Fin 8) (u : Fin 80) (w : Fin 2048) :
    h.lift (ix2 tt u) w = ix3 tt u w :=
  funext fun c => Fin.ext (match c with
    | ⟨0, _⟩ => rfl
    | ⟨1, _⟩ => rfl
    | ⟨2, _⟩ => rfl)

/-- The row maximum: the fold of max from the accumulator's pattern over the row's entries. -/
theorem red_max (X : FVec Ideal S8x80x2048 .f32) (h : S8x80x2048.Reduces [2] S8x80) (hφ : FKind.Formats .f32)
    (hacc : (0xFF800000#32 : BitVec 32) = FKind.maximumf.neutral .f32 hφ) (tt : Fin 8) (u : Fin 80) :
    multiReduction (F := Ideal) .maximumf [2] S8x80 X 0xFF800000#32 h hφ hacc (ix2 tt u)
      = Cert.Joint.rowMax fun w => X (ix3 tt u w) := by
  refine (Ideal.multiReduction_maximumf_single X _ h hφ hacc (ix2 tt u)).trans ?_
  have : (X ∘ h.lift (ix2 tt u)) = fun w : Fin 2048 => X (ix3 tt u w) :=
    funext fun w => congrArg X (lift_row h tt u w)
  rw [this]
  rfl

/-- The row sum. -/
theorem red_add (X : FVec Ideal S8x80x2048 .f32) (h : S8x80x2048.Reduces [2] S8x80) (hφ : FKind.Formats .f32)
    (hacc : (0x00000000#32 : BitVec 32) = FKind.add.neutral .f32 hφ) (tt : Fin 8) (u : Fin 80) :
    multiReduction (F := Ideal) .add [2] S8x80 X 0x00000000#32 h hφ hacc (ix2 tt u)
      = ∑ w : Fin 2048, X (ix3 tt u w) := by
  refine (Ideal.multiReduction_add_single X _ h hφ hacc (ix2 tt u)).trans ?_
  exact Finset.sum_congr rfl fun w _ => congrArg X (lift_row h tt u w)

/-! ## The elementwise transcendental operations read at an index -/

section Elementwise
variable {s : Shape} {φ : FTy}
theorem tanh_apply (x : FVec Ideal s φ) (i : s.Idx) : tanh x i = Ideal.tanh (x i) := rfl
theorem exp_apply (x : FVec Ideal s φ) (i : s.Idx) : exp x i = Ideal.exp (x i) := rfl
theorem log_apply (x : FVec Ideal s φ) (i : s.Idx) : log x i = Ideal.log (x i) := rfl
end Elementwise

/-! ## The three stages of the body over arbitrary operands -/

/-- The hidden block at (tt, u, j): tanh of the predictor product's row u plus the encoder product's row tt plus the
bias, each at column j. -/
theorem hidden_stage (A : FVec Ideal S80x512 .bf16) (E : FVec Ideal S8x512 .bf16) (Wp We : FVec Ideal S512x1024 .bf16)
    (b : FVec Ideal S1024 .f32)
    (c1 : S80x1024.ShapeCasts S1x80x1024) (c2 : S8x1024.ShapeCasts S8x1x1024) (c3 : S1024.ShapeCasts S1x1x1024)
    (b1 : S1x80x1024.Broadcasts S8x80x1024) (b2 : S8x1x1024.Broadcasts S8x80x1024) (b3 : S1x1x1024.Broadcasts S8x80x1024)
    (hlt : FTy.bits .bf16 < FTy.bits .f32) (tt : Fin 8) (u : Fin 80) (j : Fin 1024) :
    (truncf .bf16 (tanh (addf (addf
        (broadcastTo S8x80x1024 (shapeCast S1x80x1024
          (matmul dot_S80x512_S512x1024_S80x1024_1_0_0_1_n_n none A Wp (constant (F := Ideal) S80x1024 .f32 0x00000000#32)) c1) b1)
        (broadcastTo S8x80x1024 (shapeCast S8x1x1024
          (matmul dot_S8x512_S512x1024_S8x1024_1_0_0_1_n_n none E We (constant (F := Ideal) S8x1024 .f32 0x00000000#32)) c2) b2))
        (broadcastTo S8x80x1024 (shapeCast S1x1x1024 b c3) b3))) hlt : FVec Ideal S8x80x1024 .bf16) (ix3 tt u j)
      = Ideal.tanh ((∑ k : Fin 512, A (ix2 u k) * Wp (ix2 k j)) + (∑ k : Fin 512, E (ix2 tt k) * We (ix2 k j)) + b (ix1 j)) := by
  simp only [truncf_apply, tanh_apply, addf_apply, bc_pred, shapeCast_ab_1ab_apply, mm_pred, bc_enc, sc_enc, mm_enc,
    bc_bias, sc_bias]

/-- The logits at (tt, u, v): row tt * 80 + u of the hidden matrix times column v of the second weight, plus the bias. -/
theorem logit_stage (H : FVec Ideal S8x80x1024 .bf16) (W : FVec Ideal S1024x2048 .bf16) (b : FVec Ideal S2048 .f32)
    (c1 : S8x80x1024.ShapeCasts S640x1024) (c2 : S2048.ShapeCasts S1x2048) (b2 : S1x2048.Broadcasts S640x2048)
    (c3 : S640x2048.ShapeCasts S8x80x2048) (tt : Fin 8) (u : Fin 80) (v : Fin 2048) :
    shapeCast S8x80x2048 (addf
        (matmul dot_S640x1024_S1024x2048_S640x2048_1_0_0_1_n_n none (shapeCast S640x1024 H c1) W
          (constant (F := Ideal) S640x2048 .f32 0x00000000#32))
        (broadcastTo S640x2048 (shapeCast S1x2048 b c2) b2)) c3 (ix3 tt u v)
      = (∑ j : Fin 1024, H (ix3 tt u j) * W (ix2 j v)) + b (ix1 v) := by
  simp only [sc_unrows, addf_apply, mm_out, sc_rows, broadcastTo_1b_ab_apply, shapeCast_a_1a_apply]

/-- The last stage at (tt, u, v): the shifted log-softmax of row (tt, u) of the logits. -/
theorem softmax_stage (X : FVec Ideal S8x80x2048 .f32) (hr : S8x80x2048.Reduces [2] S8x80)
    (hφ : FKind.Formats .f32) (hm : (0xFF800000#32 : BitVec 32) = FKind.maximumf.neutral .f32 hφ)
    (hφ' : FKind.Formats .f32) (ha : (0x00000000#32 : BitVec 32) = FKind.add.neutral .f32 hφ')
    (cs : S8x80.ShapeCasts S8x80x1) (bs : S8x80x1.Broadcasts S8x80x2048) (tt : Fin 8) (u : Fin 80) (v : Fin 2048) :
    subf
      (subf X (broadcastTo S8x80x2048 (shapeCast S8x80x1
        (multiReduction (F := Ideal) .maximumf [2] S8x80 X 0xFF800000#32 hr hφ hm) cs) bs))
      (broadcastTo S8x80x2048 (log (shapeCast S8x80x1
        (multiReduction (F := Ideal) .add [2] S8x80
          (exp (subf X (broadcastTo S8x80x2048 (shapeCast S8x80x1
            (multiReduction (F := Ideal) .maximumf [2] S8x80 X 0xFF800000#32 hr hφ hm) cs) bs)))
          0x00000000#32 hr hφ' ha) cs)) bs) (ix3 tt u v)
      = Cert.Joint.logSoftmax (fun w => X (ix3 tt u w)) v := by
  unfold Cert.Joint.logSoftmax
  simp only [subf_apply, bc_keep, log_apply, sc_keep]
  rw [red_max, red_add]
  simp only [exp_apply, subf_apply, bc_keep, sc_keep]
  rw [red_max]

/-! ## The operands of the two first-layer products, read from the loaded blocks -/

/-- Row u of the predictor block. -/
theorem pred_read (v0 : Vec Ideal S1x80x512 .bf16) (c : S1x80x512.ShapeCasts S80x512) (u : Fin 80) (k : Fin 512) :
    shapeCast S80x512 v0 c (ix2 u k) = v0 (ix3 0 u k) := shapeCast_1ab_ab_apply v0 c u k

/-- Row tt of the encoder block. -/
theorem enc_read (v2 : Vec Ideal S1x8x512 .bf16) (c : S1x8x512.ShapeCasts S8x512) (tt : Fin 8) (k : Fin 512) :
    shapeCast S8x512 v2 c (ix2 tt k) = v2 (ix3 0 tt k) := shapeCast_1ab_ab_apply v2 c tt k

/-- The upper half of the first weight: its rows 0 .. 511. -/
theorem w1_lo (v4 : Vec Ideal S1024x1024 .bf16) (c : S1024x1024.ShapeCasts S1024x1024)
    (sl : S1024x1024.Slices ![0, 0] S512x1024) (k : Fin 512) (j : Fin 1024) :
    extractStridedSlice S512x1024 ![0, 0] (shapeCast S1024x1024 v4 c) sl (ix2 k j) = v4 (ix2 (Cert.Joint.lo512 k) j) := by
  rw [shapeCast_self]
  exact slice2_axis0_apply 0 v4 sl k j (Cert.Joint.lo512 k) (Nat.zero_add _).symm

/-- The lower half of the first weight: its rows 512 .. 1023. -/
theorem w1_hi (v4 : Vec Ideal S1024x1024 .bf16) (c : S1024x1024.ShapeCasts S1024x1024)
    (sl : S1024x1024.Slices ![512, 0] S512x1024) (k : Fin 512) (j : Fin 1024) :
    extractStridedSlice S512x1024 ![512, 0] (shapeCast S1024x1024 v4 c) sl (ix2 k j) = v4 (ix2 (Cert.Joint.hi512 k) j) := by
  rw [shapeCast_self]
  exact slice2_axis0_apply 512 v4 sl k j (Cert.Joint.hi512 k) rfl

/-- The body's stored value at row (tt, u), column v of its block is the output row of predictor row u and encoder row tt. -/
theorem pay_eq (v0 : Vec Ideal S1x80x512 .bf16) (v2 : Vec Ideal S1x8x512 .bf16) (v4 : Vec Ideal S1024x1024 .bf16)
    (v10 : Vec Ideal S1024 .f32) (v21 : Vec Ideal S1024x2048 .bf16) (v25 : Vec Ideal S2048 .f32)
    (tt : Fin 8) (u : Fin 80) (v : Fin 2048) :
    k0_pay2 (F := Ideal) v0 v2 v4 v10 v21 v25 (ix3 tt u v)
      = Cert.Joint.outRow (fun k => v0 (ix3 0 u k)) (fun k => v2 (ix3 0 tt k)) v4 v10 v21 v25 v := by
  unfold k0_pay2
  refine (softmax_stage _ _ _ _ _ _ _ _ tt u v).trans ?_
  unfold Cert.Joint.outRow
  refine congrArg (fun L => Cert.Joint.logSoftmax L v) (funext fun w => ?_)
  refine (logit_stage _ _ _ _ _ _ _ tt u w).trans ?_
  unfold Cert.Joint.logit
  refine congrArg (· + v25 (ix1 w)) (Finset.sum_congr rfl fun j _ => ?_)
  rw [shapeCast_self v21]
  refine congrArg (· * v21 (ix2 j w)) ?_
  refine (hidden_stage _ _ _ _ _ _ _ _ _ _ _ _ tt u j).trans ?_
  unfold Cert.Joint.hidden
  refine congrArg Ideal.tanh (congrArg₂ (· + ·) (congrArg₂ (· + ·)
    (Finset.sum_congr rfl fun k _ => ?_) (Finset.sum_congr rfl fun k _ => ?_)) rfl)
  · exact congrArg₂ (· * ·) (pred_read v0 _ u k) (w1_lo v4 _ _ k j)
  · exact congrArg₂ (· * ·) (enc_read v2 _ tt k) (w1_hi v4 _ _ k j)

end Cert.KernelIdeal.PayValue
-- ==== Proof.KernelArr.lean ====
/-
  The kernel's result array, read off its run.

  The kernel launches its body on a 4 × 32 grid: point (n, b) holds batch entry n's 80 predictor rows, the 8 encoder
  rows 8b … 8b+7 of the padded encoder array (250 steps padded to 256), and the whole of both weight matrices and both
  biases, and writes block (n, b) — 8 × 80 × 2048 numbers — of the padded result. The body's stored value at row
  (tt, u), column v of its block is the joint network's output row of predictor row (n, u) and encoder row (n, 8b + tt),
  at v (the hypothesis `PayFact`, proved beside this module). So point (n, b) writes back block (n, b) of ONE function
  of the arrays the region finds — `Cert.Joint.G 256` of them —, the 128 blocks tile the padded result, and the result
  ends holding that function. The host then cuts the first 250 steps out of 256: entry (n, t, u, v) with t < 250 reads
  encoder row (n, t), which the padding left as the argument's; so what is returned is `Cert.Joint.G 250` of the six
  arguments, and the padding value is never read.
-/
import proofs.«178570_j82721070121385_1_alg».proof.Proof.Gen.KernelIdeal.Frame
import proofs.«178570_j82721070121385_1_alg».proof.Proof.Spec
import Idealize.ShloMosaic.Lib.Pipeline.Value
import Idealize.ShloMosaic.Lib.ValueIdx
import Idealize.ShloMosaic.Lib.ValueLayout
import Idealize.ShloMosaic.Lib.KernelVsHost
import Idealize.ShloMosaic.Lib.StableHlo.Run

set_option maxRecDepth 16384

noncomputable section

namespace Cert.KernelIdeal.ArrValue

open Cert.KernelIdeal Cert.KernelIdeal.Gen Idealize.ShloMosaic Idealize.ShloMosaic.TcCoe Idealize.SL.Sem Idealize.ShloMosaic.ValueIdx
open Idealize.ShloMosaic.Pipeline (Dat)
open Idealize.ShloMosaic.StableHlo

/-- What the body's arithmetic is, row by row: its stored value at row (tt, u), column v is the output row of the
    block's predictor row u and encoder row tt. -/
def PayFact : Prop :=
  ∀ (v0 : Vec Ideal S1x80x512 .bf16) (v2 : Vec Ideal S1x8x512 .bf16) (v4 : Vec Ideal S1024x1024 .bf16)
    (v10 : Vec Ideal S1024 .f32) (v21 : Vec Ideal S1024x2048 .bf16) (v25 : Vec Ideal S2048 .f32)
    (tt : Fin 8) (u : Fin 80) (v : Fin 2048),
    k0_pay2 (F := Ideal) v0 v2 v4 v10 v21 v25 (ix3 tt u v)
      = Cert.Joint.outRow (fun k => v0 (ix3 0 u k)) (fun k => v2 (ix3 0 tt k)) v4 v10 v21 v25 v

variable (m : (ℓ : Loc nD τ sig) → Buf (Elt Ideal) ℓ) (ρ : Dev nD → PrngReg)

/-! ## The arrays the region finds -/

/-- A change of float format is the identity on the extended reals: the converted predictor array is the argument. -/
theorem V_v0 (c : Dev nD) : (V m c main_v0 : S4x80x512.Idx → EReal) = m ((c : Thread nD τ).loc main_arg0) := by
  dsimp only [Gen.V, Gen.V0]
  simp only [Gen.hostOps0, Gen.hostOps0_1, Gen.hostOps0_2, List.flatten_cons, List.flatten_nil, List.append_nil, List.cons_append, List.nil_append]
  after_results
  rfl

/-- Likewise the first layer's weight, -/
theorem V_v3 (c : Dev nD) : (V m c main_v3 : S1024x1024.Idx → EReal) = m ((c : Thread nD τ).loc main_arg2) := by
  dsimp only [Gen.V, Gen.V0]
  simp only [Gen.hostOps0, Gen.hostOps0_1, Gen.hostOps0_2, List.flatten_cons, List.flatten_nil, List.append_nil, List.cons_append, List.nil_append]
  after_results
  rfl

/-- and the second layer's. -/
theorem V_v4 (c : Dev nD) : (V m c main_v4 : S1024x2048.Idx → EReal) = m ((c : Thread nD τ).loc main_arg4) := by
  dsimp only [Gen.V, Gen.V0]
  simp only [Gen.hostOps0, Gen.hostOps0_1, Gen.hostOps0_2, List.flatten_cons, List.flatten_nil, List.append_nil, List.cons_append, List.nil_append]
  after_results
  rfl

/-- A step below 250, as a step of the padded array. -/
abbrev padStep (t : Fin 250) : Fin 256 := ⟨t.val, by have := t.isLt; omega⟩

/-- The padded encoder array, at a step below 250, is the argument there (the padding is at steps 250 … 255). -/
theorem V_v2_apply (c : Dev nD) (n : Fin 4) (t : Fin 250) (k : Fin 512) :
    (V m c main_v2 : S4x256x512.Idx → EReal) (ix3 n (padStep t) k) = m ((c : Thread nD τ).loc main_arg1) (ix3 n t k) := by
  dsimp only [Gen.V, Gen.V0]
  simp only [Gen.hostOps0, Gen.hostOps0_1, Gen.hostOps0_2, List.flatten_cons, List.flatten_nil, List.append_nil, List.cons_append, List.nil_append]
  after_results
  generalize (TRef.of main_call0_v0 _ _ _ : TRef sig ⟨S_, .bf16⟩).ofBuf _ = pv
  show pad (s := S4x250x512) S4x256x512 ![0, 0, 0] ![0, 6, 0] ![0, 0, 0] (m ((c : Thread nD τ).loc main_arg1) : S4x250x512.Idx → EReal) pv pads_S4x250x512_S4x256x512_000_060_000 h_S_ (ix3 n (padStep t) k) = _
  refine pad_apply_of_inside (s := S4x250x512) (t := S4x256x512) ![0, 0, 0] ![0, 6, 0] ![0, 0, 0] _ pv pads_S4x250x512_S4x256x512_000_060_000 h_S_ (ix3 n (padStep t) k) (ix3 n t k) (fun a => ?_)
  match a with
  | ⟨0, _⟩ => show n.val = 0 + n.val * (0 + 1); omega
  | ⟨1, _⟩ => show t.val = 0 + t.val * (0 + 1); omega
  | ⟨2, _⟩ => show k.val = 0 + k.val * (0 + 1); omega

/-! ## The grid's index maps, decided once -/

theorem hz4 : (![0, 0, 0, 0] : Fin 4 → Nat) = fun _ => 0 := funext fun a => by fin_cases a <;> rfl
theorem hz3 : (![0, 0, 0] : Fin 3 → Nat) = fun _ => 0 := funext fun a => by fin_cases a <;> rfl
theorem hz2 : (![0, 0] : Fin 2 → Nat) = fun _ => 0 := funext fun a => by fin_cases a <;> rfl
theorem hz1 : (![0] : Fin 1 → Nat) = fun _ => 0 := funext fun a => by fin_cases a <;> rfl

/-- At every grid point: the predictor block is batch entry n's, the encoder block is (n, b)'s, the weights' and
    biases' blocks are the whole arrays, and the output block is (n, b, 0, 0) with n ≤ 3, b ≤ 31. -/
theorem idx_facts : ∀ t : Fin cfg0.N,
    win0_0.index t (0 : Fin 3) = win0_6.index t (0 : Fin 4) ∧ win0_0.index t (1 : Fin 3) = 0 ∧ win0_0.index t (2 : Fin 3) = 0
    ∧ win0_1.index t (0 : Fin 3) = win0_6.index t (0 : Fin 4) ∧ win0_1.index t (1 : Fin 3) = win0_6.index t (1 : Fin 4) ∧ win0_1.index t (2 : Fin 3) = 0
    ∧ win0_2.index t (0 : Fin 2) = 0 ∧ win0_2.index t (1 : Fin 2) = 0
    ∧ win0_3.index t (0 : Fin 1) = 0
    ∧ win0_4.index t (0 : Fin 2) = 0 ∧ win0_4.index t (1 : Fin 2) = 0
    ∧ win0_5.index t (0 : Fin 1) = 0
    ∧ win0_6.index t (2 : Fin 4) = 0 ∧ win0_6.index t (3 : Fin 4) = 0
    ∧ win0_6.index t (0 : Fin 4) ≤ 3 ∧ win0_6.index t (1 : Fin 4) ≤ 31 :=
  (by decide +kernel : ∀ t : Fin grid0.N, _)

/-- Every block (n, b) of the padded result is some point's. -/
theorem idx_onto : ∀ (q0 : Fin 4) (q1 : Fin 32), ∃ t : Fin cfg0.N, win0_6.index t = ![q0.val, q1.val, 0, 0] :=
  (by decide +kernel : ∀ (q0 : Fin 4) (q1 : Fin 32), ∃ t : Fin grid0.N, win0_6.index t = ![q0.val, q1.val, 0, 0])

/-- The batch entry and the encoder-time block of a grid point. -/
def nOf (t : Fin cfg0.N) : Fin 4 := ⟨win0_6.index t (0 : Fin 4), by have := (idx_facts t).2.2.2.2.2.2.2.2.2.2.2.2.2.2.1; omega⟩
def bOf (t : Fin cfg0.N) : Fin 32 := ⟨win0_6.index t (1 : Fin 4), by have := (idx_facts t).2.2.2.2.2.2.2.2.2.2.2.2.2.2.2; omega⟩
/-- Row tt of block b is step 8b + tt of the padded array. -/
def stepOf (t : Fin cfg0.N) (tt : Fin 8) : Fin 256 := ⟨(bOf t).val * 8 + tt.val, by have := (bOf t).isLt; have := tt.isLt; omega⟩

/-! ## The input blocks at a point, read off the arrays -/

theorem iblk0_apply (c : Dev nD) (t : Fin cfg0.N) (u : Fin 80) (k : Fin 512) :
    (iblk m c 0 t : S1x80x512.Idx → EReal) (ix3 0 u k) = (V m c main_v0 : S4x80x512.Idx → EReal) (ix3 (nOf t) u k) := by
  obtain ⟨e0, e1, e2, -⟩ := idx_facts t
  show (V m c main_v0 : S4x80x512.Idx → EReal) (((cfg0.win 0).blk t).view.emb (ix3 0 u k)) = _
  refine congrArg _ (funext fun a => Fin.ext ?_)
  match a with
  | ⟨0, _⟩ => show win0_0.index t (0 : Fin 3) * 1 + 1 * 0 = win0_6.index t (0 : Fin 4); omega
  | ⟨1, _⟩ => show win0_0.index t (1 : Fin 3) * 80 + 1 * u.val = u.val; omega
  | ⟨2, _⟩ => show win0_0.index t (2 : Fin 3) * 512 + 1 * k.val = k.val; omega

theorem iblk1_apply (c : Dev nD) (t : Fin cfg0.N) (tt : Fin 8) (k : Fin 512) :
    (iblk m c 1 t : S1x8x512.Idx → EReal) (ix3 0 tt k) = (V m c main_v2 : S4x256x512.Idx → EReal) (ix3 (nOf t) (stepOf t tt) k) := by
  obtain ⟨-, -, -, e0, e1, e2, -⟩ := idx_facts t
  show (V m c main_v2 : S4x256x512.Idx → EReal) (((cfg0.win 1).blk t).view.emb (ix3 0 tt k)) = _
  refine congrArg _ (funext fun a => Fin.ext ?_)
  match a with
  | ⟨0, _⟩ => show win0_1.index t (0 : Fin 3) * 1 + 1 * 0 = win0_6.index t (0 : Fin 4); omega
  | ⟨1, _⟩ => show win0_1.index t (1 : Fin 3) * 8 + 1 * tt.val = win0_6.index t (1 : Fin 4) * 8 + tt.val; omega
  | ⟨2, _⟩ => show win0_1.index t (2 : Fin 3) * 512 + 1 * k.val = k.val; omega

theorem iblk2_eq (c : Dev nD) (t : Fin cfg0.N) : (iblk m c 2 t : S1024x1024.Idx → EReal) = V m c main_v3 := by
  obtain ⟨-, -, -, -, -, -, e0, e1, -⟩ := idx_facts t
  funext y
  show (V m c main_v3 : S1024x1024.Idx → EReal) (((cfg0.win 2).blk t).view.emb y) = _
  refine congrArg _ (funext fun a => Fin.ext ?_)
  match a with
  | ⟨0, _⟩ => show win0_2.index t (0 : Fin 2) * 1024 + 1 * (y 0).val = (y 0).val; omega
  | ⟨1, _⟩ => show win0_2.index t (1 : Fin 2) * 1024 + 1 * (y 1).val = (y 1).val; omega

theorem iblk3_eq (c : Dev nD) (t : Fin cfg0.N) : (iblk m c 3 t : S1024.Idx → EReal) = V m c main_arg3 := by
  obtain ⟨-, -, -, -, -, -, -, -, e0, -⟩ := idx_facts t
  funext y
  show (V m c main_arg3 : S1024.Idx → EReal) (((cfg0.win 3).blk t).view.emb y) = _
  refine congrArg _ (funext fun a => Fin.ext ?_)
  match a with
  | ⟨0, _⟩ => show win0_3.index t (0 : Fin 1) * 1024 + 1 * (y 0).val = (y 0).val; omega

theorem iblk4_eq (c : Dev nD) (t : Fin cfg0.N) : (iblk m c 4 t : S1024x2048.Idx → EReal) = V m c main_v4 := by
  obtain ⟨-, -, -, -, -, -, -, -, -, e0, e1, -⟩ := idx_facts t
  funext y
  show (V m c main_v4 : S1024x2048.Idx → EReal) (((cfg0.win 4).blk t).view.emb y) = _
  refine congrArg _ (funext fun a => Fin.ext ?_)
  match a with
  | ⟨0, _⟩ => show win0_4.index t (0 : Fin 2) * 1024 + 1 * (y 0).val = (y 0).val; omega
  | ⟨1, _⟩ => show win0_4.index t (1 : Fin 2) * 2048 + 1 * (y 1).val = (y 1).val; omega

theorem iblk5_eq (c : Dev nD) (t : Fin cfg0.N) : (iblk m c 5 t : S2048.Idx → EReal) = V m c main_arg5 := by
  obtain ⟨-, -, -, -, -, -, -, -, -, -, -, e0, -⟩ := idx_facts t
  funext y
  show (V m c main_arg5 : S2048.Idx → EReal) (((cfg0.win 5).blk t).view.emb y) = _
  refine congrArg _ (funext fun a => Fin.ext ?_)
  match a with
  | ⟨0, _⟩ => show win0_5.index t (0 : Fin 1) * 2048 + 1 * (y 0).val = (y 0).val; omega

/-! ## What a point writes back -/

/-- The padded result as one function of the arrays the region finds. -/
abbrev Gpad (c : Dev nD) : S4x256x80x2048.Idx → EReal :=
  Cert.Joint.G 256 (m ((c : Thread nD τ).loc main_arg0)) (V m c main_v2 : S4x256x512.Idx → EReal) (m ((c : Thread nD τ).loc main_arg2))
    (m ((c : Thread nD τ).loc main_arg3)) (m ((c : Thread nD τ).loc main_arg4)) (m ((c : Thread nD τ).loc main_arg5))

/-- WHAT POINT `t` WRITES BACK is block `t` of the padded result's function. -/
theorem flushed_eq (hpay : PayFact) (c : Dev nD) (t : Fin cfg0.N) :
    (dats m 0 c).flushed 6 t = ((cfg0.win 6).blk t).view.read (Elt Ideal) (Gpad m c) := by
  show (cfg0.win 6).cut (grid0.coords t) ((dats m 0 c).after 6 t) = _
  rw [after0_6]
  unfold out0_6
  rw [View.canon_unit_zero hz4]
  simp only [View.ld_unit_zero (S := S1x80x512) hz3, View.ld_unit_zero (S := S1x8x512) hz3, View.ld_unit_zero (S := S1024x1024) hz2,
    View.ld_unit_zero (S := S1024) hz1, View.ld_unit_zero (S := S1024x2048) hz2, View.ld_unit_zero (S := S2048) hz1]
  obtain ⟨-, -, -, -, -, -, -, -, -, -, -, -, e2, e3, -⟩ := idx_facts t
  funext j
  revert j
  show ∀ j : S1x8x80x2048.Idx, _
  intro j
  obtain ⟨z, tt, u, v, rfl⟩ : ∃ (z : Fin 1) (tt : Fin 8) (u : Fin 80) (v : Fin 2048), j = ix4 z tt u v := ⟨j 0, j 1, j 2, j 3, eq_ix4 j⟩
  show k0_pay1 (k0_pay2 (F := Ideal) (iblk m c 0 t) (iblk m c 1 t) (iblk m c 2 t) (iblk m c 3 t) (iblk m c 4 t) (iblk m c 5 t)) (ix4 z tt u v)
    = Gpad m c (((cfg0.win 6).blk t).view.emb (ix4 z tt u v))
  have hemb : ((cfg0.win 6).blk t).view.emb (ix4 z tt u v) = ix4 (nOf t) (stepOf t tt) u v := by
    funext a; apply Fin.ext
    have hz : z.val = 0 := by omega
    match a with
    | ⟨0, _⟩ => show win0_6.index t (0 : Fin 4) * 1 + 1 * z.val = win0_6.index t (0 : Fin 4); omega
    | ⟨1, _⟩ => show win0_6.index t (1 : Fin 4) * 8 + 1 * tt.val = win0_6.index t (1 : Fin 4) * 8 + tt.val; omega
    | ⟨2, _⟩ => show win0_6.index t (2 : Fin 4) * 80 + 1 * u.val = u.val; omega
    | ⟨3, _⟩ => show win0_6.index t (3 : Fin 4) * 2048 + 1 * v.val = v.val; omega
  rw [hemb]
  unfold k0_pay1
  refine (shapeCast_abc_1abc_apply _ shapeCasts_S8x80x2048_S1x8x80x2048 z tt u v).trans ?_
  refine (hpay _ _ _ _ _ _ tt u v).trans ?_
  show _ = Cert.Joint.outRow _ _ _ _ _ _ v
  rw [iblk2_eq, iblk3_eq, iblk4_eq, iblk5_eq, V_v3, V_v4, V_main_arg3, V_main_arg5]
  refine congrArg₂ (fun P E => Cert.Joint.outRow P E _ _ _ _ v) (funext fun k => ?_) (funext fun k => ?_)
  · rw [iblk0_apply, V_v0]
  · rw [iblk1_apply]

/-! ## The blocks tile the padded result -/

/-- An index of the padded result is in point `t`'s block iff each coordinate is in the block's range on its axis. -/
theorem mem_blk (t : Fin cfg0.N) (i : S4x256x80x2048.Idx) :
    i ∈ ((cfg0.win 6).blk t).view.set ↔ ∀ a : Fin 4, win0_6.index t a * S1x8x80x2048.size a ≤ (i a).val ∧ (i a).val < win0_6.index t a * S1x8x80x2048.size a + S1x8x80x2048.size a := by
  show i ∈ ((View.whole main_v5).slice (win0_6.rect t)).set ↔ _
  rw [View.set_slice_whole, Rect.mem_set_unit]
  exact Iff.rfl

/-- Entry (n, s, u, v) of the padded result is in the block of the point whose output block is (n, s / 8). -/
theorem cover (i : S4x256x80x2048.Idx) : ∃ t : Fin cfg0.N, (cfg0.win 6).flush t = true ∧ i ∈ ((cfg0.win 6).blk t).view.set := by
  have hi0 : (i 0).val < 4 := (i 0).isLt
  have hi1 : (i 1).val < 256 := (i 1).isLt
  have hi2 : (i 2).val < 80 := (i 2).isLt
  have hi3 : (i 3).val < 2048 := (i 3).isLt
  obtain ⟨t, ht⟩ := idx_onto ⟨(i 0).val, hi0⟩ ⟨(i 1).val / 8, by omega⟩
  have q0 : win0_6.index t (0 : Fin 4) = (i 0).val := congrFun ht 0
  have q1 : win0_6.index t (1 : Fin 4) = (i 1).val / 8 := congrFun ht 1
  have q2 : win0_6.index t (2 : Fin 4) = 0 := congrFun ht 2
  have q3 : win0_6.index t (3 : Fin 4) = 0 := congrFun ht 3
  refine ⟨t, flush0_6 t, ?_⟩
  rw [mem_blk]
  intro a
  match a with
  | ⟨0, _⟩ => show win0_6.index t (0 : Fin 4) * 1 ≤ (i 0).val ∧ (i 0).val < win0_6.index t (0 : Fin 4) * 1 + 1; omega
  | ⟨1, _⟩ => show win0_6.index t (1 : Fin 4) * 8 ≤ (i 1).val ∧ (i 1).val < win0_6.index t (1 : Fin 4) * 8 + 8; omega
  | ⟨2, _⟩ => show win0_6.index t (2 : Fin 4) * 80 ≤ (i 2).val ∧ (i 2).val < win0_6.index t (2 : Fin 4) * 80 + 80; omega
  | ⟨3, _⟩ => show win0_6.index t (3 : Fin 4) * 2048 ≤ (i 3).val ∧ (i 3).val < win0_6.index t (3 : Fin 4) * 2048 + 2048; omega

/-- THE PADDED RESULT after the run is its function of the arrays the region finds. -/
theorem final (hpay : PayFact) (c : Dev nD) : (dats m 0 c).arrAt 6 cfg0.N = Gpad m c :=
  (dats m 0 c).arrAt_eq_of_cover 6 (Gpad m c) (fun t _ => flushed_eq m hpay c t) cover

/-! ## The first 250 steps, cut out -/

/-- Cutting the first 250 encoder steps out of the padded result gives the result over 250 steps of any encoder array
    that agrees with the padded one on those steps. -/
theorem slice_G (hp : S4x80x512.Idx → EReal) (he256 : S4x256x512.Idx → EReal) (he : S4x250x512.Idx → EReal)
    (W1 : S1024x1024.Idx → EReal) (b1 : S1024.Idx → EReal) (W2 : S1024x2048.Idx → EReal) (b2 : S2048.Idx → EReal)
    (h : ∀ (n : Fin 4) (t : Fin 250) (k : Fin 512), he256 (ix3 n (padStep t) k) = he (ix3 n t k)) :
    extractStridedSlice S4x250x80x2048 ![0, 0, 0, 0] (Cert.Joint.G 256 hp he256 W1 b1 W2 b2) slices_S4x256x80x2048_S4x250x80x2048_0_0_0_0
      = Cert.Joint.G 250 hp he W1 b1 W2 b2 := by
  funext i
  obtain ⟨n, t, u, v, rfl⟩ : ∃ (n : Fin 4) (t : Fin 250) (u : Fin 80) (v : Fin 2048), i = ix4 n t u v := ⟨i 0, i 1, i 2, i 3, eq_ix4 i⟩
  refine (extractStridedSlice_apply ![0, 0, 0, 0] _ slices_S4x256x80x2048_S4x250x80x2048_0_0_0_0 (ix4 n t u v) (ix4 n (padStep t) u v) (fun a => ?_)).trans ?_
  · match a with
    | ⟨0, _⟩ => show n.val = 0 + n.val; omega
    | ⟨1, _⟩ => show t.val = 0 + t.val; omega
    | ⟨2, _⟩ => show u.val = 0 + u.val; omega
    | ⟨3, _⟩ => show v.val = 0 + v.val; omega
  · rw [Cert.Joint.G_apply, Cert.Joint.G_apply]
    exact congrArg (fun E => Cert.Joint.outRow _ E W1 b1 W2 b2 v) (funext fun k => h n t k)

/-- The buffer the host's cut writes ends holding the result over the 250 steps, of the six arguments. -/
theorem tail_eq (hpay : PayFact) (c : Dev nD) :
    Pipeline.afterTail₀ cfgs (dats m) 0 (V0 m) [hostOps1] c main_v6
      = Cert.Joint.G 250 (m ((c : Thread nD τ).loc main_arg0)) (m ((c : Thread nD τ).loc main_arg1)) (m ((c : Thread nD τ).loc main_arg2))
          (m ((c : Thread nD τ).loc main_arg3)) (m ((c : Thread nD τ).loc main_arg4)) (m ((c : Thread nD τ).loc main_arg5)) := by
  unfold Pipeline.afterTail₀
  show StableHlo.after hostOps1 _ (Proc.devRef .tc main_v6) = _
  after_results
  have e := (Pipeline.withArrays_arr spec0 launch0.win.arr_inj c (V0 m c) (fun w => (dats m 0 c).arrAt w cfg0.N) 6).trans (final m hpay c)
  show extractStridedSlice S4x250x80x2048 ![0, 0, 0, 0] (Pipeline.withArrays spec0 c (V0 m c) (fun w => (dats m 0 c).arrAt w cfg0.N) (Proc.devRef .tc (Pipeline.arrRef spec0 6))) slices_S4x256x80x2048_S4x250x80x2048_0_0_0_0 = _
  rw [e]
  exact slice_G _ _ _ _ _ _ _ (fun n t k => V_v2_apply m c n t k)

/-! ## The run, read -/

/-- Every weakly fair execution of the kernel's program terminates with the result buffer at the joint network's value
    over the 250 steps, of the six arguments, and the arguments as they were. -/
theorem run (hpay : PayFact) : θ_run defs (onTc (τ := τ) (main (F := Ideal))) ⟨m, fun _ => 0, ρ⟩ fun r => ∀ c : Dev nD,
      r.2.mem ((c.tc : Thread nD τ).loc main_v6)
        = Cert.Joint.G 250 (m ((c : Thread nD τ).loc main_arg0)) (m ((c : Thread nD τ).loc main_arg1)) (m ((c : Thread nD τ).loc main_arg2))
            (m ((c : Thread nD τ).loc main_arg3)) (m ((c : Thread nD τ).loc main_arg4)) (m ((c : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun _ h c => ⟨((h c).2 main_v6 (Pipeline.mem_restRefs_of main_v6 (by decide) (by decide))).trans (tail_eq m hpay c),
      (((h c).2 main_arg0 (Pipeline.mem_restRefs_of main_arg0 (by decide) (by decide))).trans (W_main_arg0 m (dats m) c)),
      (((h c).2 main_arg1 (Pipeline.mem_restRefs_of main_arg1 (by decide) (by decide))).trans (W_main_arg1 m (dats m) c)),
      (((h c).2 main_arg2 (Pipeline.mem_restRefs_of main_arg2 (by decide) (by decide))).trans (W_main_arg2 m (dats m) c)),
      ((h c).1 3).trans (((dats m 0 c).arrAt_in 3 rfl _).trans ((A_eq m c 3).trans (V_main_arg3 m c))),
      (((h c).2 main_arg4 (Pipeline.mem_restRefs_of main_arg4 (by decide) (by decide))).trans (W_main_arg4 m (dats m) c)),
      ((h c).1 5).trans (((dats m 0 c).arrAt_in 5 rfl _).trans ((A_eq m c 5).trans (V_main_arg5 m c)))⟩) (run_main m ρ)

end Cert.KernelIdeal.ArrValue

end
-- ==== Proof.lean ====
/-
  The certificate's claims, assembled.

  The three frames: the kernel's program at both instances runs, faults nowhere and leaves its arguments as they were
  (the generated frame proofs), and so does the reference (its run, with the result dropped). The idealized kernel is
  the kernel's own text read at the extended reals, so there is nothing to preserve. The algebraic claim: the kernel
  tiles the encoder-time axis in blocks of 8 (padded from 250 to 256 steps and cut back afterwards); at every grid
  point its body computes, row by row, the joint network's output row — the two half products of the first layer,
  the bias, tanh, the second layer, the bias, and the log-softmax over the vocabulary — of the predictor and encoder
  rows the block holds; the blocks cover the padded result, whose first 250 steps are the reference's result: the same
  composition of the same exact operations, index by index (proof/Proof/Spec.lean states it once).
-/
import proofs.«178570_j82721070121385_1_alg».proof.Defs
import proofs.«178570_j82721070121385_1_alg».proof.Proof.Gen.Kernel
import proofs.«178570_j82721070121385_1_alg».proof.Proof.Gen.Kernel.Skeleton
import proofs.«178570_j82721070121385_1_alg».proof.Proof.Gen.Kernel.Launch
import proofs.«178570_j82721070121385_1_alg».proof.Proof.Gen.Kernel.Points
import proofs.«178570_j82721070121385_1_alg».proof.Proof.Gen.Kernel.Frame
import proofs.«178570_j82721070121385_1_alg».proof.Proof.Gen.KernelIdeal
import proofs.«178570_j82721070121385_1_alg».proof.Proof.Gen.KernelIdeal.Skeleton
import proofs.«178570_j82721070121385_1_alg».proof.Proof.Gen.KernelIdeal.Launch
import proofs.«178570_j82721070121385_1_alg».proof.Proof.Gen.KernelIdeal.Points
import proofs.«178570_j82721070121385_1_alg».proof.Proof.Gen.KernelIdeal.Frame
import proofs.«178570_j82721070121385_1_alg».proof.Proof.Gen.ReferenceIdeal
import proofs.«178570_j82721070121385_1_alg».proof.Proof.Gen.Pre_finite_inputs
import proofs.«178570_j82721070121385_1_alg».proof.Proof.RefRun
import proofs.«178570_j82721070121385_1_alg».proof.Proof.RefValue
import proofs.«178570_j82721070121385_1_alg».proof.Proof.KernelPay
import proofs.«178570_j82721070121385_1_alg».proof.Proof.KernelArr
import Idealize.ShloMosaic.Adequacy
import Idealize.ShloMosaic.Init

noncomputable section

namespace Cert.Proof

open Idealize.ShloMosaic Idealize.SL.Sem Cert.Kernel

section
variable [hKernel : Cert.Kernel.Facts] [hKernelIdeal : Cert.KernelIdeal.Facts] [hReferenceIdeal : Cert.ReferenceIdeal.Facts]
  [hPre_finite_inputs : Cert.Pre_finite_inputs.Facts]

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.RunValue.run (F := Ideal) m ρ)

/-- From memories that agree on the six arguments, both idealized programs end with the joint network's value over the
    250 encoder steps in their result buffers: the kernel's by its run read block by block, the reference's by its run
    read operation by operation. -/
theorem algebraic : Cert.algebraic_KernelIdeal_ReferenceIdeal := by
  intro m ρ m' ρ' _ hagree
  refine ⟨fun c => Cert.Joint.G 250 (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5)),
    Cert.KernelIdeal.ArrValue.run m ρ Cert.KernelIdeal.PayValue.pay_eq, ?_⟩
  refine (θ_run Cert.ReferenceIdeal.defs _ _).mono (fun _ h c => ⟨(h c).1.trans ?_, (h c).2⟩)
    (Cert.ReferenceIdeal.RunValue.run (F := Ideal) m' ρ')
  rw [Cert.ReferenceIdeal.RefValue.ref_eq, (hagree c).1, (hagree c).2.1, (hagree c).2.2.1, (hagree c).2.2.2.1,
    (hagree c).2.2.2.2.1, (hagree c).2.2.2.2.2]

end

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
